-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v108)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v108) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v129) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S128x64 .f32) (main_arg10 : FVec F S64 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128x64 .f32) (main_arg10 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S800000 32) (main_arg2 : IVec S800000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x64 .f32) (main_arg10 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S5000x128 : Shape := ⟨2, ![5000, 128]⟩
abbrev S5000x1 : Shape := ⟨2, ![5000, 1]⟩
abbrev S1x64 : Shape := ⟨2, ![1, 64]⟩
abbrev S50000x64 : Shape := ⟨2, ![50000, 64]⟩
abbrev S5000x64 : Shape := ⟨2, ![5000, 64]⟩

abbrev nBuf : Space → Nat
  | .hbm => 149
  | .vmem => 36
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x64, .f32⟩
  | 10 => ⟨S64, .f32⟩
  | 11 => ⟨S_, .f32⟩
  | 12 => ⟨S800000, .f32⟩
  | 13 => ⟨S_, .f32⟩
  | 14 => ⟨S50000, .f32⟩
  | 15 => ⟨S800000x1, .i32⟩
  | 16 => ⟨S50000, .f32⟩
  | 17 => ⟨S_, .f32⟩
  | 18 => ⟨S50000, .f32⟩
  | 19 => ⟨S800000x1, .i32⟩
  | 20 => ⟨S50000, .f32⟩
  | 21 => ⟨S_, .f32⟩
  | 22 => ⟨S_, .f32⟩
  | 23 => ⟨S50000, .f32⟩
  | 24 => ⟨S50000, .f32⟩
  | 25 => ⟨S_, .f32⟩
  | 26 => ⟨S50000, .f32⟩
  | 27 => ⟨S50000, .f32⟩
  | 28 => ⟨S_, .f32⟩
  | 29 => ⟨S_, .f32⟩
  | 30 => ⟨S50000, .f32⟩
  | 31 => ⟨S50000, .f32⟩
  | 32 => ⟨S_, .f32⟩
  | 33 => ⟨S50000, .f32⟩
  | 34 => ⟨S50000, .f32⟩
  | 35 => ⟨S50000x1, .f32⟩
  | 36 => ⟨S50000x128, .f32⟩
  | 37 => ⟨S50000x128, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000x128, .f32⟩
  | 47 => ⟨S_, .f32⟩
  | 48 => ⟨S50000x128, .f32⟩
  | 49 => ⟨S800000x1, .i32⟩
  | 50 => ⟨S50000x128, .f32⟩
  | 51 => ⟨S50000x1, .f32⟩
  | 52 => ⟨S1x128, .f32⟩
  | 53 => ⟨S50000x128, .f32⟩
  | 54 => ⟨S50000x1, .f32⟩
  | 55 => ⟨S50000x128, .f32⟩
  | 56 => ⟨S50000x128, .f32⟩
  | 57 => ⟨S_, .i32⟩
  | 58 => ⟨S800000, .i32⟩
  | 59 => ⟨S800000, .i1⟩
  | 60 => ⟨S_, .i32⟩
  | 61 => ⟨S800000, .i32⟩
  | 62 => ⟨S800000, .i32⟩
  | 63 => ⟨S800000, .i32⟩
  | 64 => ⟨S800000x1, .i32⟩
  | 65 => ⟨S800000x128, .f32⟩
  | 66 => ⟨S_, .f32⟩
  | 67 => ⟨S50000x128, .f32⟩
  | 68 => ⟨S800000x1, .i32⟩
  | 69 => ⟨S50000x128, .f32⟩
  | 70 => ⟨S50000x1, .f32⟩
  | 71 => ⟨S50000x128, .f32⟩
  | 72 => ⟨S50000x128, .f32⟩
  | 73 => ⟨S50000x1, .f32⟩
  | 74 => ⟨S50000x128, .f32⟩
  | 75 => ⟨S50000x128, .f32⟩
  | 76 => ⟨S_, .i32⟩
  | 77 => ⟨S800000, .i32⟩
  | 78 => ⟨S800000, .i1⟩
  | 79 => ⟨S_, .i32⟩
  | 80 => ⟨S800000, .i32⟩
  | 81 => ⟨S800000, .i32⟩
  | 82 => ⟨S800000, .i32⟩
  | 83 => ⟨S800000x1, .i32⟩
  | 84 => ⟨S800000x128, .f32⟩
  | 85 => ⟨S_, .f32⟩
  | 86 => ⟨S50000x128, .f32⟩
  | 87 => ⟨S800000x1, .i32⟩
  | 88 => ⟨S50000x128, .f32⟩
  | 89 => ⟨S50000x1, .f32⟩
  | 90 => ⟨S1x128, .f32⟩
  | 91 => ⟨S50000x128, .f32⟩
  | 92 => ⟨S50000x1, .f32⟩
  | 93 => ⟨S50000x128, .f32⟩
  | 94 => ⟨S50000x128, .f32⟩
  | 95 => ⟨S_, .i32⟩
  | 96 => ⟨S800000, .i32⟩
  | 97 => ⟨S800000, .i1⟩
  | 98 => ⟨S_, .i32⟩
  | 99 => ⟨S800000, .i32⟩
  | 100 => ⟨S800000, .i32⟩
  | 101 => ⟨S800000, .i32⟩
  | 102 => ⟨S800000x1, .i32⟩
  | 103 => ⟨S800000x128, .f32⟩
  | 104 => ⟨S_, .f32⟩
  | 105 => ⟨S50000x128, .f32⟩
  | 106 => ⟨S800000x1, .i32⟩
  | 107 => ⟨S50000x128, .f32⟩
  | 108 => ⟨S50000x1, .f32⟩
  | 109 => ⟨S50000x128, .f32⟩
  | 110 => ⟨S50000x128, .f32⟩
  | 111 => ⟨S50000x1, .f32⟩
  | 112 => ⟨S50000x128, .f32⟩
  | 113 => ⟨S50000x128, .f32⟩
  | 114 => ⟨S_, .i32⟩
  | 115 => ⟨S800000, .i32⟩
  | 116 => ⟨S800000, .i1⟩
  | 117 => ⟨S_, .i32⟩
  | 118 => ⟨S800000, .i32⟩
  | 119 => ⟨S800000, .i32⟩
  | 120 => ⟨S800000, .i32⟩
  | 121 => ⟨S800000x1, .i32⟩
  | 122 => ⟨S800000x128, .f32⟩
  | 123 => ⟨S_, .f32⟩
  | 124 => ⟨S50000x128, .f32⟩
  | 125 => ⟨S800000x1, .i32⟩
  | 126 => ⟨S50000x128, .f32⟩
  | 127 => ⟨S50000x1, .f32⟩
  | _ => ⟨S50000x128, .f32⟩

abbrev hbmTy0_1 (i : Nat) : BufTy := match i % 128 with
  | 0 => ⟨S1x128, .f32⟩
  | 1 => ⟨S50000x128, .f32⟩
  | 2 => ⟨S50000x1, .f32⟩
  | 3 => ⟨S50000x128, .f32⟩
  | 4 => ⟨S50000x128, .f32⟩
  | 5 => ⟨S_, .i32⟩
  | 6 => ⟨S800000, .i32⟩
  | 7 => ⟨S800000, .i1⟩
  | 8 => ⟨S_, .i32⟩
  | 9 => ⟨S800000, .i32⟩
  | 10 => ⟨S800000, .i32⟩
  | 11 => ⟨S800000, .i32⟩
  | 12 => ⟨S800000x1, .i32⟩
  | 13 => ⟨S800000x128, .f32⟩
  | 14 => ⟨S_, .f32⟩
  | 15 => ⟨S50000x128, .f32⟩
  | 16 => ⟨S800000x1, .i32⟩
  | 17 => ⟨S50000x128, .f32⟩
  | 18 => ⟨S50000x1, .f32⟩
  | 19 => ⟨S1x64, .f32⟩
  | 20 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x1, .f32⟩
  | .local _ .vmem, ⟨11, _⟩ => ⟨S5000x1, .f32⟩
  | .local _ .vmem, ⟨12, _⟩ => ⟨S128x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x1, .f32⟩
  | .local _ .vmem, ⟨21, _⟩ => ⟨S5000x1, .f32⟩
  | .local _ .vmem, ⟨22, _⟩ => ⟨S128x128, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x1, .f32⟩
  | .local _ .vmem, ⟨31, _⟩ => ⟨S5000x1, .f32⟩
  | .local _ .vmem, ⟨32, _⟩ => ⟨S128x64, .f32⟩
  | .local _ .vmem, ⟨33, _⟩ => ⟨S1x64, .f32⟩
  | .local _ .vmem, ⟨34, _⟩ => ⟨S5000x64, .f32⟩
  | .local _ .vmem, ⟨35, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v7 : Ref sig .tc := ⟨.hbm, 24, rfl⟩
abbrev main_cst_3 : Ref sig .tc := ⟨.hbm, 25, rfl⟩
abbrev main_v8 : Ref sig .tc := ⟨.hbm, 26, rfl⟩
abbrev main_v9 : Ref sig .tc := ⟨.hbm, 27, rfl⟩
abbrev main_cst_4 : Ref sig .tc := ⟨.hbm, 28, rfl⟩
abbrev main_call1_v0 : Ref sig .tc := ⟨.hbm, 29, rfl⟩
abbrev main_call1_v1 : Ref sig .tc := ⟨.hbm, 30, rfl⟩
abbrev main_v10 : Ref sig .tc := ⟨.hbm, 31, rfl⟩
abbrev main_cst_5 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_c : Ref sig .tc := ⟨.hbm, 38, rfl⟩
abbrev main_v16 : Ref sig .tc := ⟨.hbm, 39, rfl⟩
abbrev main_v17 : Ref sig .tc := ⟨.hbm, 40, rfl⟩
abbrev main_c_6 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_cst_7 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_c_8 : Ref sig .tc := ⟨.hbm, 57, rfl⟩
abbrev main_v32 : Ref sig .tc := ⟨.hbm, 58, rfl⟩
abbrev main_v33 : Ref sig .tc := ⟨.hbm, 59, rfl⟩
abbrev main_c_9 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_10 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_c_11 : Ref sig .tc := ⟨.hbm, 76, rfl⟩
abbrev main_v48 : Ref sig .tc := ⟨.hbm, 77, rfl⟩
abbrev main_v49 : Ref sig .tc := ⟨.hbm, 78, rfl⟩
abbrev main_c_12 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_13 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_c_14 : Ref sig .tc := ⟨.hbm, 95, rfl⟩
abbrev main_v64 : Ref sig .tc := ⟨.hbm, 96, rfl⟩
abbrev main_v65 : Ref sig .tc := ⟨.hbm, 97, rfl⟩
abbrev main_c_15 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_cst_16 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_c_17 : Ref sig .tc := ⟨.hbm, 114, rfl⟩
abbrev main_v80 : Ref sig .tc := ⟨.hbm, 115, rfl⟩
abbrev main_v81 : Ref sig .tc := ⟨.hbm, 116, rfl⟩
abbrev main_c_18 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_cst_19 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_c_20 : Ref sig .tc := ⟨.hbm, 133, rfl⟩
abbrev main_v96 : Ref sig .tc := ⟨.hbm, 134, rfl⟩
abbrev main_v97 : Ref sig .tc := ⟨.hbm, 135, rfl⟩
abbrev main_c_21 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_cst_22 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc2_stg5_0 : Ref sig .tc := ⟨.vmem, 26, rfl⟩
abbrev cc2_stg5_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg4_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem4_1 : DmaSem sig := 25
abbrev cc2_sem5_0 : DmaSem sig := 26
abbrev cc2_sem5_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem3_0 : DmaSem sig := 33
abbrev cc3_sem4_0 : DmaSem sig := 34
abbrev cc3_sem4_1 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  shapeCasts_S50000_S50000x1 : S50000.ShapeCasts S50000x1
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S50000x128.size a
  hwx2_4 : ∀ i : grid2.Coords, EltTy.bits .f32 = 32 ∨ (Rect.block (s := S50000x128) S5000x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x64.size a ≤ S128x64.size a
  hwx3_2 : ∀ i : grid3.Coords, EltTy.bits .f32 = 32 ∨ (Rect.block (s := S128x64) S128x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S50000x64.size a
  hwx3_4 : ∀ i : grid3.Coords, EltTy.bits .f32 = 32 ∨ (Rect.block (s := S50000x64) S5000x64.size (cc3_transform_4 i) (hinb3_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v25) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v57) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v58) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v59) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S5000x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v60) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v89) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v90) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v91) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v76) S5000x128.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v92) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v105) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v106) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg9) S128x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v107) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v108) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S50000x64 : Shape := ⟨2, ![50000, 64]⟩
abbrev S1x64 : Shape := ⟨2, ![1, 64]⟩

abbrev nBuf : Space → Nat
  | .hbm => 176
  | .vmem => 0
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x64, .f32⟩
  | 10 => ⟨S64, .f32⟩
  | 11 => ⟨S_, .f32⟩
  | 12 => ⟨S800000, .f32⟩
  | 13 => ⟨S_, .f32⟩
  | 14 => ⟨S50000, .f32⟩
  | 15 => ⟨S800000x1, .i32⟩
  | 16 => ⟨S50000, .f32⟩
  | 17 => ⟨S_, .f32⟩
  | 18 => ⟨S50000, .f32⟩
  | 19 => ⟨S800000x1, .i32⟩
  | 20 => ⟨S50000, .f32⟩
  | 21 => ⟨S_, .f32⟩
  | 22 => ⟨S_, .f32⟩
  | 23 => ⟨S50000, .f32⟩
  | 24 => ⟨S50000, .f32⟩
  | 25 => ⟨S_, .f32⟩
  | 26 => ⟨S50000, .f32⟩
  | 27 => ⟨S50000, .f32⟩
  | 28 => ⟨S_, .f32⟩
  | 29 => ⟨S_, .f32⟩
  | 30 => ⟨S50000, .f32⟩
  | 31 => ⟨S50000, .f32⟩
  | 32 => ⟨S_, .f32⟩
  | 33 => ⟨S50000, .f32⟩
  | 34 => ⟨S50000, .f32⟩
  | 35 => ⟨S50000x1, .f32⟩
  | 36 => ⟨S50000x128, .f32⟩
  | 37 => ⟨S50000x128, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000x128, .f32⟩
  | 47 => ⟨S_, .f32⟩
  | 48 => ⟨S50000x128, .f32⟩
  | 49 => ⟨S800000x1, .i32⟩
  | 50 => ⟨S50000x128, .f32⟩
  | 51 => ⟨S50000x1, .f32⟩
  | 52 => ⟨S50000x128, .f32⟩
  | 53 => ⟨S50000x128, .f32⟩
  | 54 => ⟨S50000x128, .f32⟩
  | 55 => ⟨S1x128, .f32⟩
  | 56 => ⟨S50000x128, .f32⟩
  | 57 => ⟨S50000x128, .f32⟩
  | 58 => ⟨S_, .f32⟩
  | 59 => ⟨S50000x128, .f32⟩
  | 60 => ⟨S50000x128, .f32⟩
  | 61 => ⟨S50000x1, .f32⟩
  | 62 => ⟨S50000x128, .f32⟩
  | 63 => ⟨S50000x128, .f32⟩
  | 64 => ⟨S_, .i32⟩
  | 65 => ⟨S800000, .i32⟩
  | 66 => ⟨S800000, .i1⟩
  | 67 => ⟨S_, .i32⟩
  | 68 => ⟨S800000, .i32⟩
  | 69 => ⟨S800000, .i32⟩
  | 70 => ⟨S800000, .i32⟩
  | 71 => ⟨S800000x1, .i32⟩
  | 72 => ⟨S800000x128, .f32⟩
  | 73 => ⟨S_, .f32⟩
  | 74 => ⟨S50000x128, .f32⟩
  | 75 => ⟨S800000x1, .i32⟩
  | 76 => ⟨S50000x128, .f32⟩
  | 77 => ⟨S50000x1, .f32⟩
  | 78 => ⟨S50000x128, .f32⟩
  | 79 => ⟨S50000x128, .f32⟩
  | 80 => ⟨S50000x1, .f32⟩
  | 81 => ⟨S50000x128, .f32⟩
  | 82 => ⟨S50000x128, .f32⟩
  | 83 => ⟨S_, .i32⟩
  | 84 => ⟨S800000, .i32⟩
  | 85 => ⟨S800000, .i1⟩
  | 86 => ⟨S_, .i32⟩
  | 87 => ⟨S800000, .i32⟩
  | 88 => ⟨S800000, .i32⟩
  | 89 => ⟨S800000, .i32⟩
  | 90 => ⟨S800000x1, .i32⟩
  | 91 => ⟨S800000x128, .f32⟩
  | 92 => ⟨S_, .f32⟩
  | 93 => ⟨S50000x128, .f32⟩
  | 94 => ⟨S800000x1, .i32⟩
  | 95 => ⟨S50000x128, .f32⟩
  | 96 => ⟨S50000x1, .f32⟩
  | 97 => ⟨S50000x128, .f32⟩
  | 98 => ⟨S50000x128, .f32⟩
  | 99 => ⟨S50000x128, .f32⟩
  | 100 => ⟨S1x128, .f32⟩
  | 101 => ⟨S50000x128, .f32⟩
  | 102 => ⟨S50000x128, .f32⟩
  | 103 => ⟨S50000x128, .f32⟩
  | 104 => ⟨S_, .f32⟩
  | 105 => ⟨S50000x128, .f32⟩
  | 106 => ⟨S50000x128, .f32⟩
  | 107 => ⟨S50000x1, .f32⟩
  | 108 => ⟨S50000x128, .f32⟩
  | 109 => ⟨S50000x128, .f32⟩
  | 110 => ⟨S_, .i32⟩
  | 111 => ⟨S800000, .i32⟩
  | 112 => ⟨S800000, .i1⟩
  | 113 => ⟨S_, .i32⟩
  | 114 => ⟨S800000, .i32⟩
  | 115 => ⟨S800000, .i32⟩
  | 116 => ⟨S800000, .i32⟩
  | 117 => ⟨S800000x1, .i32⟩
  | 118 => ⟨S800000x128, .f32⟩
  | 119 => ⟨S_, .f32⟩
  | 120 => ⟨S50000x128, .f32⟩
  | 121 => ⟨S800000x1, .i32⟩
  | 122 => ⟨S50000x128, .f32⟩
  | 123 => ⟨S50000x1, .f32⟩
  | 124 => ⟨S50000x128, .f32⟩
  | 125 => ⟨S50000x128, .f32⟩
  | 126 => ⟨S50000x1, .f32⟩
  | 127 => ⟨S50000x128, .f32⟩
  | _ => ⟨S50000x128, .f32⟩

abbrev hbmTy0_1 (i : Nat) : BufTy := match i % 128 with
  | 0 => ⟨S50000x128, .f32⟩
  | 1 => ⟨S_, .i32⟩
  | 2 => ⟨S800000, .i32⟩
  | 3 => ⟨S800000, .i1⟩
  | 4 => ⟨S_, .i32⟩
  | 5 => ⟨S800000, .i32⟩
  | 6 => ⟨S800000, .i32⟩
  | 7 => ⟨S800000, .i32⟩
  | 8 => ⟨S800000x1, .i32⟩
  | 9 => ⟨S800000x128, .f32⟩
  | 10 => ⟨S_, .f32⟩
  | 11 => ⟨S50000x128, .f32⟩
  | 12 => ⟨S800000x1, .i32⟩
  | 13 => ⟨S50000x128, .f32⟩
  | 14 => ⟨S50000x1, .f32⟩
  | 15 => ⟨S50000x128, .f32⟩
  | 16 => ⟨S50000x128, .f32⟩
  | 17 => ⟨S50000x128, .f32⟩
  | 18 => ⟨S1x128, .f32⟩
  | 19 => ⟨S50000x128, .f32⟩
  | 20 => ⟨S50000x128, .f32⟩
  | 21 => ⟨S50000x128, .f32⟩
  | 22 => ⟨S_, .f32⟩
  | 23 => ⟨S50000x128, .f32⟩
  | 24 => ⟨S50000x128, .f32⟩
  | 25 => ⟨S50000x1, .f32⟩
  | 26 => ⟨S50000x128, .f32⟩
  | 27 => ⟨S50000x128, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000x128, .f32⟩
  | 37 => ⟨S_, .f32⟩
  | 38 => ⟨S50000x128, .f32⟩
  | 39 => ⟨S800000x1, .i32⟩
  | 40 => ⟨S50000x128, .f32⟩
  | 41 => ⟨S50000x1, .f32⟩
  | 42 => ⟨S50000x128, .f32⟩
  | 43 => ⟨S50000x128, .f32⟩
  | 44 => ⟨S50000x64, .f32⟩
  | 45 => ⟨S1x64, .f32⟩
  | 46 => ⟨S50000x64, .f32⟩
  | 47 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v7 : Ref sig .tc := ⟨.hbm, 24, rfl⟩
abbrev main_cst_3 : Ref sig .tc := ⟨.hbm, 25, rfl⟩
abbrev main_v8 : Ref sig .tc := ⟨.hbm, 26, rfl⟩
abbrev main_v9 : Ref sig .tc := ⟨.hbm, 27, rfl⟩
abbrev main_cst_4 : Ref sig .tc := ⟨.hbm, 28, rfl⟩
abbrev main_call1_v0 : Ref sig .tc := ⟨.hbm, 29, rfl⟩
abbrev main_call1_v1 : Ref sig .tc := ⟨.hbm, 30, rfl⟩
abbrev main_v10 : Ref sig .tc := ⟨.hbm, 31, rfl⟩
abbrev main_cst_5 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_c : Ref sig .tc := ⟨.hbm, 38, rfl⟩
abbrev main_v16 : Ref sig .tc := ⟨.hbm, 39, rfl⟩
abbrev main_v17 : Ref sig .tc := ⟨.hbm, 40, rfl⟩
abbrev main_c_6 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_cst_7 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_call2_cst : Ref sig .tc := ⟨.hbm, 58, rfl⟩
abbrev main_call2_v0 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_c_8 : Ref sig .tc := ⟨.hbm, 64, rfl⟩
abbrev main_v37 : Ref sig .tc := ⟨.hbm, 65, rfl⟩
abbrev main_v38 : Ref sig .tc := ⟨.hbm, 66, rfl⟩
abbrev main_c_9 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_10 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_c_11 : Ref sig .tc := ⟨.hbm, 83, rfl⟩
abbrev main_v53 : Ref sig .tc := ⟨.hbm, 84, rfl⟩
abbrev main_v54 : Ref sig .tc := ⟨.hbm, 85, rfl⟩
abbrev main_c_12 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_cst_13 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_call3_cst : Ref sig .tc := ⟨.hbm, 104, rfl⟩
abbrev main_call3_v0 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_c_14 : Ref sig .tc := ⟨.hbm, 110, rfl⟩
abbrev main_v75 : Ref sig .tc := ⟨.hbm, 111, rfl⟩
abbrev main_v76 : Ref sig .tc := ⟨.hbm, 112, rfl⟩
abbrev main_c_15 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_cst_16 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_c_17 : Ref sig .tc := ⟨.hbm, 129, rfl⟩
abbrev main_v91 : Ref sig .tc := ⟨.hbm, 130, rfl⟩
abbrev main_v92 : Ref sig .tc := ⟨.hbm, 131, rfl⟩
abbrev main_c_18 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_cst_19 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_call4_cst : Ref sig .tc := ⟨.hbm, 150, rfl⟩
abbrev main_call4_v0 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_c_20 : Ref sig .tc := ⟨.hbm, 156, rfl⟩
abbrev main_v113 : Ref sig .tc := ⟨.hbm, 157, rfl⟩
abbrev main_v114 : Ref sig .tc := ⟨.hbm, 158, rfl⟩
abbrev main_c_21 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_cst_22 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KRun.lean ====
/-
  The idealized kernel program's run with every unscoped buffer named.

  The program is twelve segments: five stretches of host operations, then four kernel calls with a stretch of host
  operations before each of the last three. The buffer contents at each boundary are a fold from the launch memory:
  a stretch applies its operations, a call replaces its arrays by what its write-backs leave. Every weakly fair
  execution terminates without a fault, and in every final state each unscoped TensorCore buffer holds the last
  boundary's contents. (The frame claim keeps of this only the argument arrays; the value claim needs the result array.)
-/
import proofs.«126240_j20607253086494_1_alg».proof.Proof.Gen.KernelIdeal.Frame

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates, nothing faulting, and
    every unscoped TensorCore buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h => h)

/-- The same, kept for the result array and the argument arrays: the result at the last boundary's contents, the arguments as launched. -/
theorem run_named : θ_run defs (onTc (τ := τ) (main (F := F))) ⟨m, fun _ => 0, ρ⟩ (fun r => ∀ c : Dev nD,
      r.2.mem ((c.tc : Thread nD τ).loc main_v108) = W12 m ρ c (Proc.devRef .tc main_v108)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun s h c =>
      ⟨h c _ (mem_uc main_v108 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c)⟩)
    (run_all m ρ)

end Cert.KernelIdeal.Named

end
-- ==== Proof.LibDot.lean ====
/-
  A plain matrix product read at an entry. For the dimension numbers "rows × contraction by contraction × columns"
  (`DotDims.plain M K N`) the sum over the contraction index, of the left operand at the dot's left index times the
  right operand at its right index, is the textbook sum `∑ i, l (p, i) · r (i, q)` at output entry `(p, q)`: the
  contraction shape has one axis of extent `K`, and the two operand indices at contraction position `i` are
  `(p, i)` and `(i, q)`. Both a `tpu.matmul` into a zero accumulator and a host `dot_general` are this sum at the
  exact values, so each reads at an entry as the textbook sum.
-/
import Idealize.ShloMosaic.PureOps.Ideal.Laws
import Idealize.ShloMosaic.Lib.ValueIdx

noncomputable section

namespace Cert.LibDot

open Idealize.ShloMosaic Idealize.ShloMosaic.ValueIdx

/-- The left index of a plain product at output `(p, q)` and contraction position `i` is `(p, i)`. -/
theorem plain_lhsIdx (M K N : Nat) (p : Fin M) (q : Fin N) (i : Fin K) :
    (DotDims.plain M K N).lhsIdx (ix2 p q) ((contrEquiv1 (DotDims.plain M K N) K rfl rfl).symm i) = ix2 p i := by
  funext a
  apply Fin.ext
  match a with
  | ⟨0, _⟩ => rfl
  | ⟨1, _⟩ =>
    refine ((DotDims.plain M K N).lhsIdx_val_of_single (cl := (1 : Fin 2)) rfl (ix2 p q) _).trans ?_
    exact contrEquiv1_symm_val (DotDims.plain M K N) K rfl rfl i

/-- The right index of a plain product at output `(p, q)` and contraction position `i` is `(i, q)`. -/
theorem plain_rhsIdx (M K N : Nat) (p : Fin M) (q : Fin N) (i : Fin K) :
    (DotDims.plain M K N).rhsIdx (ix2 p q) ((contrEquiv1 (DotDims.plain M K N) K rfl rfl).symm i) = ix2 i q := by
  funext a
  apply Fin.ext
  match a with
  | ⟨0, _⟩ =>
    refine ((DotDims.plain M K N).rhsIdx_val_of_single (cr := (0 : Fin 2)) rfl (ix2 p q) _).trans ?_
    exact contrEquiv1_symm_val (DotDims.plain M K N) K rfl rfl i
  | ⟨1, _⟩ => rfl

/-- The contraction sum of a plain product at output `(p, q)` is `∑ i, l (p, i) · r (i, q)`. -/
theorem plain_sum (M K N : Nat) (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ i : Fin K, l (ix2 p i) * r (ix2 i q) := by
  rw [← Equiv.sum_comp (contrEquiv1 (DotDims.plain M K N) K rfl rfl).symm]
  refine Finset.sum_congr rfl fun i _ => ?_
  rw [plain_lhsIdx, plain_rhsIdx]

end Cert.LibDot

end
-- ==== Proof.LibRows.lean ====
/-
  Rows of dense layers, read entry by entry on the extended reals. A matrix product with the plain dimension
  numbers (rows × contraction by contraction × columns), taken by the matrix unit into a zero accumulator or by the
  host, is the textbook sum `∑ i, l (p, i) · r (i, q)` at entry `(p, q)`; a bias vector made a row and repeated down
  the rows reads its entry `q` at `(p, q)`, in the kernel's spelling and in the host's; a scalar broadcast reads the
  scalar everywhere; two 64-column arrays side by side read the first below column 64 and the second from there on.
  With these one entry of a two-layer perceptron's output depends on one row of its input (`mlpRow`).
-/
import proofs.«126240_j20607253086494_1_alg».proof.Proof.LibDot
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

noncomputable section

namespace Cert.LibRows

open Idealize.ShloMosaic Idealize.ShloMosaic.ValueIdx

/-- A product into a zero accumulator, for dimension numbers that are the plain ones, read at an entry. -/
theorem matmul_plain_apply {M K N : Nat} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (p : Fin M) (q : Fin N) :
    matmul D prec l r (constant ⟨2, ![M, N]⟩ .f32 0x00000000#32) (ix2 p q) = ∑ i : Fin K, l (ix2 p i) * r (ix2 i q) := by
  subst hD
  refine (Ideal.matmul_constant_zero_apply (DotDims.plain M K N) prec l r (ix2 p q)).trans ?_
  exact Cert.LibDot.plain_sum M K N l r p q

/-- The host's product with the plain dimension numbers, read at an entry: the same sum. -/
theorem dotGeneral_plain_apply {M K N : Nat} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (p : Fin M) (q : Fin N) :
    Host.dotGeneral D prec l r (ix2 p q) = ∑ i : Fin K, l (ix2 p i) * r (ix2 i q) := by
  subst hD
  refine (Ideal.dotGeneral_apply (DotDims.plain M K N) prec .single l r (ix2 p q)).trans ?_
  exact Cert.LibDot.plain_sum M K N l r p q

/-- A vector of `b` entries made a row and repeated down `a` rows reads, at `(p, c)`, the vector's entry `c`. -/
theorem rowBias_apply {α : Type} {a b : Nat} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) := by
  rw [broadcastTo_1b_ab_apply, shapeCast_a_1a_apply]

/-- The host's spelling of the same: a `[b]` vector broadcast along axis 1 to `[1, b]`, then along both to `[a, b]`. -/
theorem rowBiasInDim_apply {α : Type} {a b : Nat} (v : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1]) (p : Fin a) (c : Fin b) :
    broadcastInDim ⟨2, ![a, b]⟩ ![0, 1] h2 (broadcastInDim ⟨2, ![1, b]⟩ ![1] h1 v) (ix2 p c) = v (ix1 c) := by
  rw [broadcastInDim_apply ![0, 1] h2 _ (ix2 p c) (ix2 (0 : Fin 1) c) (fun ax => by
    match ax with
    | ⟨0, _⟩ => rfl
    | ⟨1, _⟩ =>
      show c.val = if b = 1 then 0 else c.val
      split
      · have := c.isLt; omega
      · rfl)]
  rw [broadcastInDim_apply ![1] h1 v (ix2 (0 : Fin 1) c) (ix1 c) (fun ax => by
    match ax with
    | ⟨0, _⟩ =>
      show c.val = if b = 1 then 0 else c.val
      split
      · have := c.isLt; omega
      · rfl)]

/-- A scalar broadcast to any shape reads the scalar at every index. -/
theorem scalarInDim_apply {α : Type} {s : Shape} (x : (⟨0, ![]⟩ : Shape).Idx → α) (h : (⟨0, ![]⟩ : Shape).BroadcastsInDim s ![]) (j : s.Idx) :
    broadcastInDim s ![] h x j = x ix0 := by
  rw [broadcastInDim_apply ![] h x j ix0 (fun ax => ax.elim0)]

/-- The leaky rectifier on one extended real. -/
def lk (x : Ideal .f32) : Ideal .f32 :=
  Scalar.select (FloatOps.cmpf .oge x (Ideal.ofBits .f32 0x00000000#32)) x (Ideal.ofBits .f32 0x3C23D70A#32 * x)

/-- One entry of a two-layer perceptron's row: from the row `A` of the input. -/
def mlpRow {K H N : Nat} (A : Fin K → EReal) (w1 : (⟨2, ![K, H]⟩ : Shape).Idx → EReal) (b1 : (⟨1, ![H]⟩ : Shape).Idx → EReal)
    (w2 : (⟨2, ![H, N]⟩ : Shape).Idx → EReal) (b2 : (⟨1, ![N]⟩ : Shape).Idx → EReal) (q : Fin N) : EReal :=
  (∑ k : Fin H, lk ((∑ i : Fin K, A i * w1 (ix2 i k)) + b1 (ix1 k)) * w2 (ix2 k q)) + b2 (ix1 q)

/-- Two arrays of 64 columns side by side: column `i` is the first array's below 64 and the second's column `i - 64` from there on. -/
theorem cat_apply {α : Type} {M : Nat} (a b : (⟨2, ![M, 64]⟩ : Shape).Idx → α)
    (h : Shape.Concatenates [⟨2, ![M, 64]⟩, ⟨2, ![M, 64]⟩] ⟨2, ![M, 128]⟩ 1) (p : Fin M) (i : Fin 128) :
    concatenate ⟨2, ![M, 128]⟩ 1 [⟨⟨2, ![M, 64]⟩, a⟩, ⟨⟨2, ![M, 64]⟩, b⟩] h (ix2 p i)
      = if hi : i.val < 64 then a (ix2 p ⟨i.val, hi⟩) else b (ix2 p ⟨i.val - 64, by have := i.isLt; omega⟩) := by
  split
  · next hi =>
    refine concatenate_pair_apply_left 1 a b h (ix2 p i) rfl (ix2 p ⟨i.val, hi⟩) fun bb => ?_
    match bb with
    | ⟨0, _⟩ => rfl
    | ⟨1, _⟩ => rfl
  · next hi =>
    refine concatenate_pair_apply_right 1 a b h (ix2 p i) rfl rfl (ix2 p ⟨i.val - 64, by have := i.isLt; omega⟩) (fun bb hb => ?_) ?_
    · match bb with
      | ⟨0, _⟩ => rfl
      | ⟨1, _⟩ => exact absurd rfl hb
    · show i.val - 64 + 64 = i.val
      omega

end Cert.LibRows

end
-- ==== Proof.LibCols.lean ====
/-
  A column of per-row numbers against a matrix, read entry by entry. A vector of `a` entries made a column `[a, 1]`
  reads its entry `p` at `(p, 0)`; a column repeated across `b` columns reads its entry `p` at `(p, c)`. Both in the
  vector unit's spelling (a shape cast, a broadcast) and in the host's (two `broadcast_in_dim`s). These are the forms
  a keep-dimensions row reduction takes on its way back to the matrix it was reduced from.
-/
import Idealize.ShloMosaic.Lib.Pipeline.Value
import Idealize.ShloMosaic.Lib.ValueIdx
import Idealize.ShloMosaic.Lib.ValueLayout

namespace Cert.LibCols

open Idealize.ShloMosaic Idealize.ShloMosaic.ValueIdx

variable {α : Type}

/-- An `[a]` array cast to `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's column: an `[a]` vector broadcast along axis 0 into `[a, 1]` reads, at `(p, u)`, the vector's entry `p`. -/
theorem inDim_a_a1_apply {a : ℕ} (v : (⟨1, ![a]⟩ : Shape).Idx → α) (h : (⟨1, ![a]⟩ : Shape).BroadcastsInDim ⟨2, ![a, 1]⟩ ![0])
    (p : Fin a) (u : Fin 1) : broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- The host's repeated column: an `[a, 1]` array broadcast along both axes into `[a, b]` reads, at `(p, c)`, entry `p`. -/
theorem inDim_a1_ab_apply {a b : ℕ} (v : (⟨2, ![a, 1]⟩ : Shape).Idx → α) (h : (⟨2, ![a, 1]⟩ : Shape).BroadcastsInDim ⟨2, ![a, b]⟩ ![0, 1])
    (p : Fin a) (c : Fin b) : broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

end Cert.LibCols
-- ==== Proof.Layer.lean ====
/-
  One dense layer of the graph network, entry by entry on the extended reals.

  Row `p` of the aggregated features is scaled by node `p`'s factor (a column of one number per node), multiplied by
  the weight matrix, and the bias row is added: entry `(p, q)` is
  `(∑ i, (x (p, i) · s (p, 0)) · W (i, q)) + b (0, q)` (`lin`). The hidden layers then add a residual entry and take
  the maximum with zero; the last layer does neither. A change of float format is the identity on extended reals, so
  the body's two roundings to bf16 before the product do not show. Everything here is stated for any number of rows
  `N` and any number of output columns `D`: the same text reads a block of rows and the whole array.
-/
import proofs.«126240_j20607253086494_1_alg».proof.Proof.LibRows
import proofs.«126240_j20607253086494_1_alg».proof.Proof.LibCols

noncomputable section

namespace Cert.Gcn

open Idealize.ShloMosaic Idealize.ShloMosaic.ValueIdx

variable {N D : ℕ}

/-- The zero the rectifier compares with: the extended real the all-zero f32 word encodes. -/
abbrev zero32 : EReal := Ideal.ofBits .f32 0x00000000#32

/-- Entry `(p, q)` of the affine part of a layer: row `p` scaled by its node's factor, times the weights, plus the bias. -/
def lin (x : FVec Ideal ⟨2, ![N, 128]⟩ .f32) (s : FVec Ideal ⟨2, ![N, 1]⟩ .f32) (W : FVec Ideal ⟨2, ![128, D]⟩ .f32)
    (b : FVec Ideal ⟨2, ![1, D]⟩ .f32) (p : Fin N) (q : Fin D) : EReal :=
  (∑ i : Fin 128, (x (ix2 p i) * s (ix2 p (0 : Fin 1))) * W (ix2 i q)) + b (ix2 (0 : Fin 1) q)

/-- The last layer: the affine part alone. -/
def dense (x : FVec Ideal ⟨2, ![N, 128]⟩ .f32) (s : FVec Ideal ⟨2, ![N, 1]⟩ .f32) (W : FVec Ideal ⟨2, ![128, D]⟩ .f32)
    (b : FVec Ideal ⟨2, ![1, D]⟩ .f32) : FVec Ideal ⟨2, ![N, D]⟩ .f32 :=
  fun j => lin x s W b (j 0) (j 1)

/-- The first layer: the affine part rectified. -/
def denseRelu (x : FVec Ideal ⟨2, ![N, 128]⟩ .f32) (s : FVec Ideal ⟨2, ![N, 1]⟩ .f32) (W : FVec Ideal ⟨2, ![128, D]⟩ .f32)
    (b : FVec Ideal ⟨2, ![1, D]⟩ .f32) : FVec Ideal ⟨2, ![N, D]⟩ .f32 :=
  fun j => max (lin x s W b (j 0) (j 1)) zero32

/-- A residual layer: the affine part plus the residual entry, rectified. -/
def denseResRelu (x : FVec Ideal ⟨2, ![N, 128]⟩ .f32) (s : FVec Ideal ⟨2, ![N, 1]⟩ .f32) (W : FVec Ideal ⟨2, ![128, D]⟩ .f32)
    (b : FVec Ideal ⟨2, ![1, D]⟩ .f32) (r : FVec Ideal ⟨2, ![N, D]⟩ .f32) : FVec Ideal ⟨2, ![N, D]⟩ .f32 :=
  fun j => max (lin x s W b (j 0) (j 1) + r j) zero32

/-! ## The kernel body's spelling -/

/-- The body's affine part at an entry: the block times its column of factors, rounded (the identity here), through the
    matrix unit into a zero accumulator, plus the bias row repeated down the rows. -/
theorem body_affine_apply (dd : DotDims ⟨2, ![N, 128]⟩ ⟨2, ![128, D]⟩ ⟨2, ![N, D]⟩) (hdd : dd = DotDims.plain N 128 D)
    (x0 : FVec Ideal ⟨2, ![N, 128]⟩ .f32) (x1 : FVec Ideal ⟨2, ![N, 1]⟩ .f32) (x2 : FVec Ideal ⟨2, ![128, D]⟩ .f32)
    (x3 : FVec Ideal ⟨2, ![1, D]⟩ .f32)
    (h0 : (⟨2, ![N, 128]⟩ : Shape).ShapeCasts ⟨2, ![N, 128]⟩) (h1 : (⟨2, ![N, 1]⟩ : Shape).ShapeCasts ⟨2, ![N, 1]⟩)
    (hb1 : (⟨2, ![N, 1]⟩ : Shape).Broadcasts ⟨2, ![N, 128]⟩) (h3 : (⟨2, ![1, D]⟩ : Shape).ShapeCasts ⟨2, ![1, D]⟩)
    (hb3 : (⟨2, ![1, D]⟩ : Shape).Broadcasts ⟨2, ![N, D]⟩) (hlt : FTy.bits .bf16 < FTy.bits .f32) (p : Fin N) (q : Fin D) :
    addf (matmul dd none
            (truncf .bf16 (mulf (shapeCast ⟨2, ![N, 128]⟩ x0 h0) (broadcastTo ⟨2, ![N, 128]⟩ (shapeCast ⟨2, ![N, 1]⟩ x1 h1) hb1)) hlt)
            (truncf .bf16 x2 hlt) (constant ⟨2, ![N, D]⟩ .f32 0x00000000#32))
         (broadcastTo ⟨2, ![N, D]⟩ (shapeCast ⟨2, ![1, D]⟩ x3 h3) hb3) (ix2 p q) = lin x0 x1 x2 x3 p q := by
  rw [addf_apply, Cert.LibRows.matmul_plain_apply dd hdd, broadcastTo_1b_ab_apply]
  simp only [shapeCast_self]
  unfold lin
  congr 1
  refine Finset.sum_congr rfl fun i _ => ?_
  rw [truncf_apply, truncf_apply, mulf_apply, Cert.LibCols.broadcastTo_a1_ab_apply]

/-- The first layer's body is `denseRelu` of its loaded blocks. -/
theorem body_relu_eq (dd : DotDims ⟨2, ![N, 128]⟩ ⟨2, ![128, D]⟩ ⟨2, ![N, D]⟩) (hdd : dd = DotDims.plain N 128 D)
    (x0 : FVec Ideal ⟨2, ![N, 128]⟩ .f32) (x1 : FVec Ideal ⟨2, ![N, 1]⟩ .f32) (x2 : FVec Ideal ⟨2, ![128, D]⟩ .f32)
    (x3 : FVec Ideal ⟨2, ![1, D]⟩ .f32)
    (h0 : (⟨2, ![N, 128]⟩ : Shape).ShapeCasts ⟨2, ![N, 128]⟩) (h1 : (⟨2, ![N, 1]⟩ : Shape).ShapeCasts ⟨2, ![N, 1]⟩)
    (hb1 : (⟨2, ![N, 1]⟩ : Shape).Broadcasts ⟨2, ![N, 128]⟩) (h3 : (⟨2, ![1, D]⟩ : Shape).ShapeCasts ⟨2, ![1, D]⟩)
    (hb3 : (⟨2, ![1, D]⟩ : Shape).Broadcasts ⟨2, ![N, D]⟩) (hlt : FTy.bits .bf16 < FTy.bits .f32) :
    maximumf (addf (matmul dd none
            (truncf .bf16 (mulf (shapeCast ⟨2, ![N, 128]⟩ x0 h0) (broadcastTo ⟨2, ![N, 128]⟩ (shapeCast ⟨2, ![N, 1]⟩ x1 h1) hb1)) hlt)
            (truncf .bf16 x2 hlt) (constant ⟨2, ![N, D]⟩ .f32 0x00000000#32))
         (broadcastTo ⟨2, ![N, D]⟩ (shapeCast ⟨2, ![1, D]⟩ x3 h3) hb3))
      (broadcast ⟨2, ![N, D]⟩ (Scalar.ofBits (F := Ideal) .f32 0x00000000#32)) = denseRelu x0 x1 x2 x3 := by
  funext j
  obtain ⟨p, q, rfl⟩ : ∃ (p : Fin N) (q : Fin D), j = ix2 p q := ⟨j 0, j 1, eq_ix2 j⟩
  rw [maximumf_apply, body_affine_apply dd hdd]
  rfl

/-- A residual layer's body is `denseResRelu` of its loaded blocks. -/
theorem body_res_relu_eq (dd : DotDims ⟨2, ![N, 128]⟩ ⟨2, ![128, D]⟩ ⟨2, ![N, D]⟩) (hdd : dd = DotDims.plain N 128 D)
    (x0 : FVec Ideal ⟨2, ![N, 128]⟩ .f32) (x1 : FVec Ideal ⟨2, ![N, 1]⟩ .f32) (x2 : FVec Ideal ⟨2, ![128, D]⟩ .f32)
    (x3 : FVec Ideal ⟨2, ![1, D]⟩ .f32) (x4 : FVec Ideal ⟨2, ![N, D]⟩ .f32)
    (h0 : (⟨2, ![N, 128]⟩ : Shape).ShapeCasts ⟨2, ![N, 128]⟩) (h1 : (⟨2, ![N, 1]⟩ : Shape).ShapeCasts ⟨2, ![N, 1]⟩)
    (hb1 : (⟨2, ![N, 1]⟩ : Shape).Broadcasts ⟨2, ![N, 128]⟩) (h3 : (⟨2, ![1, D]⟩ : Shape).ShapeCasts ⟨2, ![1, D]⟩)
    (hb3 : (⟨2, ![1, D]⟩ : Shape).Broadcasts ⟨2, ![N, D]⟩) (h4 : (⟨2, ![N, D]⟩ : Shape).ShapeCasts ⟨2, ![N, D]⟩)
    (hlt : FTy.bits .bf16 < FTy.bits .f32) :
    maximumf (addf (addf (matmul dd none
            (truncf .bf16 (mulf (shapeCast ⟨2, ![N, 128]⟩ x0 h0) (broadcastTo ⟨2, ![N, 128]⟩ (shapeCast ⟨2, ![N, 1]⟩ x1 h1) hb1)) hlt)
            (truncf .bf16 x2 hlt) (constant ⟨2, ![N, D]⟩ .f32 0x00000000#32))
         (broadcastTo ⟨2, ![N, D]⟩ (shapeCast ⟨2, ![1, D]⟩ x3 h3) hb3)) (shapeCast ⟨2, ![N, D]⟩ x4 h4))
      (broadcast ⟨2, ![N, D]⟩ (Scalar.ofBits (F := Ideal) .f32 0x00000000#32)) = denseResRelu x0 x1 x2 x3 x4 := by
  funext j
  obtain ⟨p, q, rfl⟩ : ∃ (p : Fin N) (q : Fin D), j = ix2 p q := ⟨j 0, j 1, eq_ix2 j⟩
  rw [maximumf_apply, addf_apply, body_affine_apply dd hdd, shapeCast_self]
  rfl

/-- The last layer's body is `dense` of its loaded blocks. -/
theorem body_eq (dd : DotDims ⟨2, ![N, 128]⟩ ⟨2, ![128, D]⟩ ⟨2, ![N, D]⟩) (hdd : dd = DotDims.plain N 128 D)
    (x0 : FVec Ideal ⟨2, ![N, 128]⟩ .f32) (x1 : FVec Ideal ⟨2, ![N, 1]⟩ .f32) (x2 : FVec Ideal ⟨2, ![128, D]⟩ .f32)
    (x3 : FVec Ideal ⟨2, ![1, D]⟩ .f32)
    (h0 : (⟨2, ![N, 128]⟩ : Shape).ShapeCasts ⟨2, ![N, 128]⟩) (h1 : (⟨2, ![N, 1]⟩ : Shape).ShapeCasts ⟨2, ![N, 1]⟩)
    (hb1 : (⟨2, ![N, 1]⟩ : Shape).Broadcasts ⟨2, ![N, 128]⟩) (h3 : (⟨2, ![1, D]⟩ : Shape).ShapeCasts ⟨2, ![1, D]⟩)
    (hb3 : (⟨2, ![1, D]⟩ : Shape).Broadcasts ⟨2, ![N, D]⟩) (hlt : FTy.bits .bf16 < FTy.bits .f32) :
    addf (matmul dd none
            (truncf .bf16 (mulf (shapeCast ⟨2, ![N, 128]⟩ x0 h0) (broadcastTo ⟨2, ![N, 128]⟩ (shapeCast ⟨2, ![N, 1]⟩ x1 h1) hb1)) hlt)
            (truncf .bf16 x2 hlt) (constant ⟨2, ![N, D]⟩ .f32 0x00000000#32))
         (broadcastTo ⟨2, ![N, D]⟩ (shapeCast ⟨2, ![1, D]⟩ x3 h3) hb3) = dense x0 x1 x2 x3 := by
  funext j
  obtain ⟨p, q, rfl⟩ : ∃ (p : Fin N) (q : Fin D), j = ix2 p q := ⟨j 0, j 1, eq_ix2 j⟩
  rw [body_affine_apply dd hdd]
  rfl

/-! ## The host's spelling -/

/-- The host's affine part at an entry: the features times the repeated column of per-node factors, through the host's
    product, plus the bias vector made a row and repeated. It is `lin` of the factors as a column and the bias as a row. -/
theorem host_affine_apply (dd : DotDims ⟨2, ![N, 128]⟩ ⟨2, ![128, D]⟩ ⟨2, ![N, D]⟩) (hdd : dd = DotDims.plain N 128 D)
    (x : FVec Ideal ⟨2, ![N, 128]⟩ .f32) (nv : FVec Ideal ⟨1, ![N]⟩ .f32) (W : FVec Ideal ⟨2, ![128, D]⟩ .f32)
    (b : FVec Ideal ⟨1, ![D]⟩ .f32)
    (h1 : (⟨1, ![N]⟩ : Shape).BroadcastsInDim ⟨2, ![N, 1]⟩ ![0]) (h2 : (⟨2, ![N, 1]⟩ : Shape).BroadcastsInDim ⟨2, ![N, 128]⟩ ![0, 1])
    (h3 : (⟨1, ![D]⟩ : Shape).BroadcastsInDim ⟨2, ![1, D]⟩ ![1]) (h4 : (⟨2, ![1, D]⟩ : Shape).BroadcastsInDim ⟨2, ![N, D]⟩ ![0, 1])
    (hc : (⟨1, ![N]⟩ : Shape).ShapeCasts ⟨2, ![N, 1]⟩) (hcb : (⟨1, ![D]⟩ : Shape).ShapeCasts ⟨2, ![1, D]⟩) (p : Fin N) (q : Fin D) :
    addf (Host.dotGeneral dd none (mulf x (broadcastInDim ⟨2, ![N, 128]⟩ ![0, 1] h2 (broadcastInDim ⟨2, ![N, 1]⟩ ![0] h1 nv))) W)
         (broadcastInDim ⟨2, ![N, D]⟩ ![0, 1] h4 (broadcastInDim ⟨2, ![1, D]⟩ ![1] h3 b)) (ix2 p q)
      = lin x (shapeCast ⟨2, ![N, 1]⟩ nv hc) W (shapeCast ⟨2, ![1, D]⟩ b hcb) p q := by
  rw [addf_apply, Cert.LibRows.dotGeneral_plain_apply dd hdd, Cert.LibRows.rowBiasInDim_apply]
  unfold lin
  rw [shapeCast_a_1a_apply, Cert.LibCols.shapeCast_a_a1_apply]
  congr 1
  refine Finset.sum_congr rfl fun i _ => ?_
  rw [mulf_apply, Cert.LibCols.inDim_a1_ab_apply, Cert.LibCols.inDim_a_a1_apply]

/-- The host's rectified layer is `denseRelu`. -/
theorem host_relu_eq (dd : DotDims ⟨2, ![N, 128]⟩ ⟨2, ![128, D]⟩ ⟨2, ![N, D]⟩) (hdd : dd = DotDims.plain N 128 D)
    (x : FVec Ideal ⟨2, ![N, 128]⟩ .f32) (nv : FVec Ideal ⟨1, ![N]⟩ .f32) (W : FVec Ideal ⟨2, ![128, D]⟩ .f32)
    (b : FVec Ideal ⟨1, ![D]⟩ .f32)
    (h1 : (⟨1, ![N]⟩ : Shape).BroadcastsInDim ⟨2, ![N, 1]⟩ ![0]) (h2 : (⟨2, ![N, 1]⟩ : Shape).BroadcastsInDim ⟨2, ![N, 128]⟩ ![0, 1])
    (h3 : (⟨1, ![D]⟩ : Shape).BroadcastsInDim ⟨2, ![1, D]⟩ ![1]) (h4 : (⟨2, ![1, D]⟩ : Shape).BroadcastsInDim ⟨2, ![N, D]⟩ ![0, 1])
    (h5 : (⟨0, ![]⟩ : Shape).BroadcastsInDim ⟨2, ![N, D]⟩ ![])
    (hc : (⟨1, ![N]⟩ : Shape).ShapeCasts ⟨2, ![N, 1]⟩) (hcb : (⟨1, ![D]⟩ : Shape).ShapeCasts ⟨2, ![1, D]⟩) :
    maximumf (addf (Host.dotGeneral dd none (mulf x (broadcastInDim ⟨2, ![N, 128]⟩ ![0, 1] h2 (broadcastInDim ⟨2, ![N, 1]⟩ ![0] h1 nv))) W)
         (broadcastInDim ⟨2, ![N, D]⟩ ![0, 1] h4 (broadcastInDim ⟨2, ![1, D]⟩ ![1] h3 b)))
        (broadcastInDim ⟨2, ![N, D]⟩ ![] h5 (constant (F := Ideal) ⟨0, ![]⟩ .f32 0x00000000#32))
      = denseRelu x (shapeCast ⟨2, ![N, 1]⟩ nv hc) W (shapeCast ⟨2, ![1, D]⟩ b hcb) := by
  funext j
  obtain ⟨p, q, rfl⟩ : ∃ (p : Fin N) (q : Fin D), j = ix2 p q := ⟨j 0, j 1, eq_ix2 j⟩
  rw [maximumf_apply, host_affine_apply dd hdd x nv W b h1 h2 h3 h4 hc hcb, Cert.LibRows.scalarInDim_apply, constant_apply]
  rfl

/-- The host's rectified residual layer is `denseResRelu`. -/
theorem host_res_relu_eq (dd : DotDims ⟨2, ![N, 128]⟩ ⟨2, ![128, D]⟩ ⟨2, ![N, D]⟩) (hdd : dd = DotDims.plain N 128 D)
    (x : FVec Ideal ⟨2, ![N, 128]⟩ .f32) (nv : FVec Ideal ⟨1, ![N]⟩ .f32) (W : FVec Ideal ⟨2, ![128, D]⟩ .f32)
    (b : FVec Ideal ⟨1, ![D]⟩ .f32) (r : FVec Ideal ⟨2, ![N, D]⟩ .f32)
    (h1 : (⟨1, ![N]⟩ : Shape).BroadcastsInDim ⟨2, ![N, 1]⟩ ![0]) (h2 : (⟨2, ![N, 1]⟩ : Shape).BroadcastsInDim ⟨2, ![N, 128]⟩ ![0, 1])
    (h3 : (⟨1, ![D]⟩ : Shape).BroadcastsInDim ⟨2, ![1, D]⟩ ![1]) (h4 : (⟨2, ![1, D]⟩ : Shape).BroadcastsInDim ⟨2, ![N, D]⟩ ![0, 1])
    (h5 : (⟨0, ![]⟩ : Shape).BroadcastsInDim ⟨2, ![N, D]⟩ ![])
    (hc : (⟨1, ![N]⟩ : Shape).ShapeCasts ⟨2, ![N, 1]⟩) (hcb : (⟨1, ![D]⟩ : Shape).ShapeCasts ⟨2, ![1, D]⟩) :
    maximumf (addf (addf (Host.dotGeneral dd none (mulf x (broadcastInDim ⟨2, ![N, 128]⟩ ![0, 1] h2 (broadcastInDim ⟨2, ![N, 1]⟩ ![0] h1 nv))) W)
         (broadcastInDim ⟨2, ![N, D]⟩ ![0, 1] h4 (broadcastInDim ⟨2, ![1, D]⟩ ![1] h3 b))) r)
        (broadcastInDim ⟨2, ![N, D]⟩ ![] h5 (constant (F := Ideal) ⟨0, ![]⟩ .f32 0x00000000#32))
      = denseResRelu x (shapeCast ⟨2, ![N, 1]⟩ nv hc) W (shapeCast ⟨2, ![1, D]⟩ b hcb) r := by
  funext j
  obtain ⟨p, q, rfl⟩ : ∃ (p : Fin N) (q : Fin D), j = ix2 p q := ⟨j 0, j 1, eq_ix2 j⟩
  rw [maximumf_apply, addf_apply, host_affine_apply dd hdd x nv W b h1 h2 h3 h4 hc hcb, Cert.LibRows.scalarInDim_apply, constant_apply]
  rfl

/-- The host's last layer is `dense`. -/
theorem host_eq (dd : DotDims ⟨2, ![N, 128]⟩ ⟨2, ![128, D]⟩ ⟨2, ![N, D]⟩) (hdd : dd = DotDims.plain N 128 D)
    (x : FVec Ideal ⟨2, ![N, 128]⟩ .f32) (nv : FVec Ideal ⟨1, ![N]⟩ .f32) (W : FVec Ideal ⟨2, ![128, D]⟩ .f32)
    (b : FVec Ideal ⟨1, ![D]⟩ .f32)
    (h1 : (⟨1, ![N]⟩ : Shape).BroadcastsInDim ⟨2, ![N, 1]⟩ ![0]) (h2 : (⟨2, ![N, 1]⟩ : Shape).BroadcastsInDim ⟨2, ![N, 128]⟩ ![0, 1])
    (h3 : (⟨1, ![D]⟩ : Shape).BroadcastsInDim ⟨2, ![1, D]⟩ ![1]) (h4 : (⟨2, ![1, D]⟩ : Shape).BroadcastsInDim ⟨2, ![N, D]⟩ ![0, 1])
    (hc : (⟨1, ![N]⟩ : Shape).ShapeCasts ⟨2, ![N, 1]⟩) (hcb : (⟨1, ![D]⟩ : Shape).ShapeCasts ⟨2, ![1, D]⟩) :
    addf (Host.dotGeneral dd none (mulf x (broadcastInDim ⟨2, ![N, 128]⟩ ![0, 1] h2 (broadcastInDim ⟨2, ![N, 1]⟩ ![0] h1 nv))) W)
         (broadcastInDim ⟨2, ![N, D]⟩ ![0, 1] h4 (broadcastInDim ⟨2, ![1, D]⟩ ![1] h3 b))
      = dense x (shapeCast ⟨2, ![N, 1]⟩ nv hc) W (shapeCast ⟨2, ![1, D]⟩ b hcb) := by
  funext j
  obtain ⟨p, q, rfl⟩ : ∃ (p : Fin N) (q : Fin D), j = ix2 p q := ⟨j 0, j 1, eq_ix2 j⟩
  rw [host_affine_apply dd hdd x nv W b h1 h2 h3 h4 hc hcb]
  rfl

/-! ## A block of rows of a layer is the layer of the block of rows -/

/-- `lin` reads its operands only at row `p` and column `q`: operands that agree there give the same entry. -/
theorem lin_congr {M : ℕ} (x : FVec Ideal ⟨2, ![N, 128]⟩ .f32) (s : FVec Ideal ⟨2, ![N, 1]⟩ .f32)
    (W : FVec Ideal ⟨2, ![128, D]⟩ .f32) (b : FVec Ideal ⟨2, ![1, D]⟩ .f32)
    (x' : FVec Ideal ⟨2, ![M, 128]⟩ .f32) (s' : FVec Ideal ⟨2, ![M, 1]⟩ .f32)
    (W' : FVec Ideal ⟨2, ![128, D]⟩ .f32) (b' : FVec Ideal ⟨2, ![1, D]⟩ .f32) (p : Fin N) (p' : Fin M) (q q' : Fin D)
    (hx : ∀ i : Fin 128, x (ix2 p i) = x' (ix2 p' i)) (hs : s (ix2 p (0 : Fin 1)) = s' (ix2 p' (0 : Fin 1)))
    (hW : ∀ i : Fin 128, W (ix2 i q) = W' (ix2 i q')) (hb : b (ix2 (0 : Fin 1) q) = b' (ix2 (0 : Fin 1) q')) :
    lin x s W b p q = lin x' s' W' b' p' q' := by
  unfold lin
  rw [hs, hb]
  congr 1
  exact Finset.sum_congr rfl fun i _ => by rw [hx i, hW i]

end Cert.Gcn

end
-- ==== Proof.Spec.lean ====
/-
  The graph network, as one function of its eleven arguments, in two spellings.

  The per-node factors are the in- and out-degrees (segment sums of ones over the edge list), clipped below at one and
  raised to the power −1/2. A node's aggregate is the sum, over its incoming edges, of the source node's features scaled
  by the source's out-degree factor (a gather along the sources, a scatter-add along the destinations). A layer scales
  the aggregate by the in-degree factor, multiplies by its weights and adds its bias; the two middle layers add the
  residual (the raw features aggregated with the in-degree factor on both sides) before rectifying.

  `refNet` spells each layer with the host's operations, `kerNet` with the entry-by-entry layer functions of
  Layer.lean applied to the same aggregates, the factors as a column and the bias as a row. They are one function:
  each host layer IS the layer function (`host_relu_eq`, `host_res_relu_eq`, `host_eq`).
-/
import proofs.«126240_j20607253086494_1_alg».proof.ReferenceIdeal
import proofs.«126240_j20607253086494_1_alg».proof.Proof.Gen.ReferenceIdeal
import proofs.«126240_j20607253086494_1_alg».proof.Proof.Layer

noncomputable section

namespace Cert.Gcn

open Idealize.ShloMosaic Cert.ReferenceIdeal Cert.ReferenceIdeal.Gen

/-! ## The shared host chains, at any float values

These are the same operations in both programs, so they are carried as named functions and never opened. -/

section AnyFloat
variable {F : FTy → Type} [FloatOps F]

/-- How many edges end (or start) at each node: ones scatter-added along the edge ends. -/
def degree (idx : IVec S800000 32) : FVec F S50000 .f32 :=
  Host.scatterAdd scatter_S50000_S800000x1_S800000_n_0_0_1 (broadcastInDim S50000 ![] bcast_S_S50000 (constant S_ .f32 0x00000000#32))
    (broadcastInDim S800000x1 ![0] bcast_S800000_S800000x1_0 idx)
    (broadcastInDim S800000 ![] bcast_S_S800000 (constant S_ .f32 0x3F800000#32))

/-- The degree clipped below at one, to the power −1/2. -/
def norm (idx : IVec S800000 32) : FVec F S50000 .f32 :=
  Host.powf (maximumf (broadcastInDim S50000 ![] bcast_S_S50000 (id (constant S_ .f32 0x3F800000#32))) (degree (F := F) idx))
    (broadcastInDim S50000 ![] bcast_S_S50000 (constant S_ .f32 0xBF000000#32))

/-- One number per node repeated across the 128 feature columns. -/
def col (v : FVec F S50000 .f32) : FVec F S50000x128 .f32 :=
  broadcastInDim S50000x128 ![0, 1] bcast_S50000x1_S50000x128_0_1 (broadcastInDim S50000x1 ![0] bcast_S50000_S50000x1_0 v)

/-- Each node's sum of its incoming edges' source rows (a negative source index counted from the end). -/
def aggregate (x : FVec F S50000x128 .f32) (src dst : IVec S800000 32) : FVec F S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst)
    (Host.gather gather_S50000x128_S800000x1_S800000x128_1_0_n_n_0_1_1128 x
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

/-- The aggregate of the features scaled by the out-degree factor of their node. -/
def agg (h : FVec F S50000x128 .f32) (src dst : IVec S800000 32) : FVec F S50000x128 .f32 :=
  aggregate (mulf h (col (norm (F := F) src))) src dst

/-- The residual: the raw features aggregated with the in-degree factor before and after. -/
def resid (x : FVec F S50000x128 .f32) (src dst : IVec S800000 32) : FVec F S50000x128 .f32 :=
  mulf (aggregate (mulf x (col (norm (F := F) dst))) src dst) (col (norm (F := F) dst))

theorem castCol : S50000.ShapeCasts S50000x1 := by decide
theorem castRow : S128.ShapeCasts S1x128 := by decide
theorem castRow64 : S64.ShapeCasts S1x64 := by decide

/-- The per-node factors as a column. -/
def colv (v : FVec F S50000 .f32) : FVec F S50000x1 .f32 := shapeCast S50000x1 v castCol
/-- A bias vector as a row. -/
def rowv (b : FVec F S128 .f32) : FVec F S1x128 .f32 := shapeCast S1x128 b castRow
def rowv64 (b : FVec F S64 .f32) : FVec F S1x64 .f32 := shapeCast S1x64 b castRow64

end AnyFloat

/-! ## The host's spelling of the layers -/

def refL0 (a : FVec Ideal S50000x128 .f32) (nv : FVec Ideal S50000 .f32) (W : FVec Ideal S128x128 .f32) (b : FVec Ideal S128 .f32) :
    FVec Ideal S50000x128 .f32 :=
  maximumf (addf (Host.dotGeneral dot_S50000x128_S128x128_S50000x128_1_0_0_1_n_n none (mulf a (col nv)) W)
      (broadcastInDim S50000x128 ![0, 1] bcast_S1x128_S50000x128_0_1 (broadcastInDim S1x128 ![1] bcast_S128_S1x128_1 b)))
    (broadcastInDim S50000x128 ![] bcast_S_S50000x128 (constant S_ .f32 0x00000000#32))

def refL1 (a : FVec Ideal S50000x128 .f32) (nv : FVec Ideal S50000 .f32) (W : FVec Ideal S128x128 .f32) (b : FVec Ideal S128 .f32)
    (r : FVec Ideal S50000x128 .f32) : FVec Ideal S50000x128 .f32 :=
  maximumf (addf (addf (Host.dotGeneral dot_S50000x128_S128x128_S50000x128_1_0_0_1_n_n none (mulf a (col nv)) W)
      (broadcastInDim S50000x128 ![0, 1] bcast_S1x128_S50000x128_0_1 (broadcastInDim S1x128 ![1] bcast_S128_S1x128_1 b))) r)
    (broadcastInDim S50000x128 ![] bcast_S_S50000x128 (constant S_ .f32 0x00000000#32))

def refL3 (a : FVec Ideal S50000x128 .f32) (nv : FVec Ideal S50000 .f32) (W : FVec Ideal S128x64 .f32) (b : FVec Ideal S64 .f32) :
    FVec Ideal S50000x64 .f32 :=
  addf (Host.dotGeneral dot_S50000x128_S128x64_S50000x64_1_0_0_1_n_n none (mulf a (col nv)) W)
    (broadcastInDim S50000x64 ![0, 1] bcast_S1x64_S50000x64_0_1 (broadcastInDim S1x64 ![1] bcast_S64_S1x64_1 b))

/-- The network in the host's spelling. -/
def refNet (x : FVec Ideal S50000x128 .f32) (src dst : IVec S800000 32) (W0 : FVec Ideal S128x128 .f32) (b0 : FVec Ideal S128 .f32)
    (W1 : FVec Ideal S128x128 .f32) (b1 : FVec Ideal S128 .f32) (W2 : FVec Ideal S128x128 .f32) (b2 : FVec Ideal S128 .f32)
    (W3 : FVec Ideal S128x64 .f32) (b3 : FVec Ideal S64 .f32) : FVec Ideal S50000x64 .f32 :=
  refL3 (agg (refL1 (agg (refL1 (agg (refL0 (agg x src dst) (norm (F := Ideal) dst) W0 b0) src dst) (norm (F := Ideal) dst) W1 b1 (resid x src dst)) src dst)
    (norm (F := Ideal) dst) W2 b2 (resid x src dst)) src dst) (norm (F := Ideal) dst) W3 b3

/-! ## The layer functions' spelling -/

/-- The network through the entry-by-entry layer functions. -/
def kerNet (x : FVec Ideal S50000x128 .f32) (src dst : IVec S800000 32) (W0 : FVec Ideal S128x128 .f32) (b0 : FVec Ideal S128 .f32)
    (W1 : FVec Ideal S128x128 .f32) (b1 : FVec Ideal S128 .f32) (W2 : FVec Ideal S128x128 .f32) (b2 : FVec Ideal S128 .f32)
    (W3 : FVec Ideal S128x64 .f32) (b3 : FVec Ideal S64 .f32) : FVec Ideal S50000x64 .f32 :=
  dense (N := 50000) (D := 64)
    (agg (denseResRelu (N := 50000) (D := 128)
      (agg (denseResRelu (N := 50000) (D := 128)
        (agg (denseRelu (N := 50000) (D := 128) (agg x src dst) (colv (norm (F := Ideal) dst)) W0 (rowv b0)) src dst)
        (colv (norm (F := Ideal) dst)) W1 (rowv b1) (resid x src dst)) src dst)
      (colv (norm (F := Ideal) dst)) W2 (rowv b2) (resid x src dst)) src dst)
    (colv (norm (F := Ideal) dst)) W3 (rowv64 b3)

theorem refL0_eq (a : FVec Ideal S50000x128 .f32) (nv : FVec Ideal S50000 .f32) (W : FVec Ideal S128x128 .f32) (b : FVec Ideal S128 .f32) :
    refL0 a nv W b = denseRelu (N := 50000) (D := 128) a (colv nv) W (rowv b) :=
  host_relu_eq dot_S50000x128_S128x128_S50000x128_1_0_0_1_n_n rfl a nv W b _ _ _ _ _ castCol castRow

theorem refL1_eq (a : FVec Ideal S50000x128 .f32) (nv : FVec Ideal S50000 .f32) (W : FVec Ideal S128x128 .f32) (b : FVec Ideal S128 .f32)
    (r : FVec Ideal S50000x128 .f32) :
    refL1 a nv W b r = denseResRelu (N := 50000) (D := 128) a (colv nv) W (rowv b) r :=
  host_res_relu_eq dot_S50000x128_S128x128_S50000x128_1_0_0_1_n_n rfl a nv W b r _ _ _ _ _ castCol castRow

theorem refL3_eq (a : FVec Ideal S50000x128 .f32) (nv : FVec Ideal S50000 .f32) (W : FVec Ideal S128x64 .f32) (b : FVec Ideal S64 .f32) :
    refL3 a nv W b = dense (N := 50000) (D := 64) a (colv nv) W (rowv64 b) :=
  host_eq dot_S50000x128_S128x64_S50000x64_1_0_0_1_n_n rfl a nv W b _ _ _ _ castCol castRow64

/-- The two spellings are one function. -/
theorem refNet_eq_kerNet (x : FVec Ideal S50000x128 .f32) (src dst : IVec S800000 32) (W0 : FVec Ideal S128x128 .f32) (b0 : FVec Ideal S128 .f32)
    (W1 : FVec Ideal S128x128 .f32) (b1 : FVec Ideal S128 .f32) (W2 : FVec Ideal S128x128 .f32) (b2 : FVec Ideal S128 .f32)
    (W3 : FVec Ideal S128x64 .f32) (b3 : FVec Ideal S64 .f32) :
    refNet x src dst W0 b0 W1 b1 W2 b2 W3 b3 = kerNet x src dst W0 b0 W1 b1 W2 b2 W3 b3 := by
  unfold refNet kerNet
  rw [refL3_eq, refL1_eq, refL1_eq, refL0_eq]

end Cert.Gcn

end
-- ==== Proof.Region0.lean ====
/-
  The first layer's call, from blocks of rows to the whole array.

  The grid has ten points; point `t` reads rows `5000 t … 5000 t + 4999` of the aggregated features and of the
  column of per-node factors, the whole weight matrix and the whole bias row, and writes the same rows of the result.
  One entry of a layer depends on one row of the features and one factor, so rows `5000 t …` of the layer of
  the whole arrays are the layer of those rows; and the ten row blocks cover the 50000 rows. So after the call the
  result array holds `denseRelu` of the arrays as the call found them.
-/
import proofs.«126240_j20607253086494_1_alg».proof.Proof.Gen.KernelIdeal.Frame
import proofs.«126240_j20607253086494_1_alg».proof.Proof.Layer
import Idealize.ShloMosaic.Lib.Pipeline.Value

noncomputable section

namespace Cert.KernelIdeal.Blocks

open Idealize.ShloMosaic Idealize.ShloMosaic.TcCoe Idealize.SL.Sem Idealize.ShloMosaic.ValueIdx
open Idealize.ShloMosaic.Pipeline (Dat)
open Cert.KernelIdeal Cert.KernelIdeal.Gen Cert.Gcn

variable (V : (c : Dev nD) → (b : Ref sig .tc) → Buf (Elt Ideal) ((c : Thread nD τ).loc b))

theorem hz0 : (![0, 0] : Fin 2 → Nat) = fun _ => 0 := funext fun a => by fin_cases a <;> rfl

/-- The body's stored value is the layer function of its loaded blocks. -/
theorem pay0_eq (x0 : FVec Ideal S5000x128 .f32) (x1 : FVec Ideal S5000x1 .f32) (x2 : FVec Ideal S128x128 .f32) (x3 : FVec Ideal S1x128 .f32) :
    k0_pay1 x0 x1 x2 x3 = denseRelu x0 x1 x2 x3 :=
  body_relu_eq dot_S5000x128_S128x128_S5000x128_1_0_0_1_n_n rfl x0 x1 x2 x3 _ _ _ _ _ _

/-- The block indices, decided over the ten points: the row windows move with the point, the weights and the bias stay. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- What point `t` writes back is rows `5000 t …` of the layer of the whole arrays. -/
theorem flushed0 (c : Dev nD) (t : Fin cfg0.N) :
    (dat0 V c).flushed 4 t = ((cfg0.win 4).blk t).view.read (Elt Ideal)
      (denseRelu (N := 50000) (D := 128) (V c main_v25) (V c main_v26) (V c main_arg3) (V c main_v27)) := by
  show (cfg0.win 4).cut (grid0.coords t) ((dat0 V c).after 4 t) = _
  rw [after0_4]
  unfold out0_4
  rw [View.canon_unit_zero hz0]
  simp only [View.ld_unit_zero (S := S5000x128) hz0, View.ld_unit_zero (S := S5000x1) hz0, View.ld_unit_zero (S := S128x128) hz0, View.ld_unit_zero (S := S1x128) hz0]
  rw [pay0_eq]
  obtain ⟨e00, e01, e10, e11, e20, e21, e30, e31, eo0, eo1⟩ := idx_facts0 t
  funext j
  show max (lin (iblk0 V c 0 t) (iblk0 V c 1 t) (iblk0 V c 2 t) (iblk0 V c 3 t) (j 0) (j 1)) zero32
     = max (lin (N := 50000) (D := 128) (V c main_v25) (V c main_v26) (V c main_arg3) (V c main_v27) ((((cfg0.win 4).blk t).view.emb j) 0) ((((cfg0.win 4).blk t).view.emb j) 1)) zero32
  refine congrArg (fun z => max z zero32) (lin_congr _ _ _ _ _ _ _ _ _ _ _ _ ?_ ?_ ?_ ?_)
  · intro i
    show V c main_v25 (((cfg0.win 0).blk t).view.emb (ix2 (n0 := 5000) (n1 := 128) (j 0) i))
      = V c main_v25 (ix2 (n0 := 50000) (n1 := 128) ((((cfg0.win 4).blk t).view.emb j) 0) i)
    refine congrArg (V c main_v25) ?_
    funext a; apply Fin.ext
    match a with
    | ⟨0, _⟩ => show win0_0.index t (0 : Fin 2) * 5000 + 1 * (j 0).val = win0_4.index t (0 : Fin 2) * 5000 + 1 * (j 0).val; rw [e00, eo0]
    | ⟨1, _⟩ => show win0_0.index t (1 : Fin 2) * 128 + 1 * i.val = i.val; rw [e01]; omega
  · show V c main_v26 (((cfg0.win 1).blk t).view.emb (ix2 (n0 := 5000) (n1 := 1) (j 0) (0 : Fin 1)))
      = V c main_v26 (ix2 (n0 := 50000) (n1 := 1) ((((cfg0.win 4).blk t).view.emb j) 0) (0 : Fin 1))
    refine congrArg (V c main_v26) ?_
    funext a; apply Fin.ext
    match a with
    | ⟨0, _⟩ => show win0_1.index t (0 : Fin 2) * 5000 + 1 * (j 0).val = win0_4.index t (0 : Fin 2) * 5000 + 1 * (j 0).val; rw [e10, eo0]
    | ⟨1, _⟩ => show win0_1.index t (1 : Fin 2) * 1 + 1 * 0 = 0; rw [e11]
  · intro i
    show V c main_arg3 (((cfg0.win 2).blk t).view.emb (ix2 (n0 := 128) (n1 := 128) i (j 1)))
      = V c main_arg3 (ix2 (n0 := 128) (n1 := 128) i ((((cfg0.win 4).blk t).view.emb j) 1))
    refine congrArg (V c main_arg3) ?_
    funext a; apply Fin.ext
    match a with
    | ⟨0, _⟩ => show win0_2.index t (0 : Fin 2) * 128 + 1 * i.val = i.val; rw [e20]; omega
    | ⟨1, _⟩ => show win0_2.index t (1 : Fin 2) * 128 + 1 * (j 1).val = win0_4.index t (1 : Fin 2) * 128 + 1 * (j 1).val; rw [e21, eo1]
  · show V c main_v27 (((cfg0.win 3).blk t).view.emb (ix2 (n0 := 1) (n1 := 128) (0 : Fin 1) (j 1)))
      = V c main_v27 (ix2 (n0 := 1) (n1 := 128) (0 : Fin 1) ((((cfg0.win 4).blk t).view.emb j) 1))
    refine congrArg (V c main_v27) ?_
    funext a; apply Fin.ext
    match a with
    | ⟨0, _⟩ => show win0_3.index t (0 : Fin 2) * 1 + 1 * 0 = 0; rw [e30]
    | ⟨1, _⟩ => show win0_3.index t (1 : Fin 2) * 128 + 1 * (j 1).val = win0_4.index t (1 : Fin 2) * 128 + 1 * (j 1).val; rw [e31, eo1]

/-- An index of the result array is in point `t`'s block iff each coordinate is in the block's range on its axis. -/
theorem mem_blk0 (t : Fin cfg0.N) (i : S50000x128.Idx) :
    i ∈ ((cfg0.win 4).blk t).view.set ↔ ∀ a : Fin 2, win0_4.index t a * S5000x128.size a ≤ (i a).val
      ∧ (i a).val < win0_4.index t a * S5000x128.size a + S5000x128.size a := by
  show i ∈ ((View.whole main_v28).slice (win0_4.rect t)).set ↔ _
  rw [View.set_slice_whole, Rect.mem_set_unit]
  exact Iff.rfl

/-- Row `r` is in the block of point `r / 5000`: the ten blocks cover the array. -/
theorem cover0 (i : S50000x128.Idx) : ∃ t : Fin cfg0.N, (cfg0.win 4).flush t = true ∧ i ∈ ((cfg0.win 4).blk t).view.set := by
  have hN : cfg0.N = 10 := N_0
  have hi0 : (i 0).val < 50000 := idx2_lt0 i
  have hi1 : (i 1).val < 128 := idx2_lt1 i
  refine ⟨⟨(i 0).val / 5000, by rw [hN]; omega⟩, flush0_4 _, ?_⟩
  rw [mem_blk0]
  obtain ⟨-, -, -, -, -, -, -, -, eo0, eo1⟩ := idx_facts0 ⟨(i 0).val / 5000, by rw [hN]; omega⟩
  intro a
  match a with
  | ⟨0, _⟩ =>
    show win0_4.index _ (0 : Fin 2) * 5000 ≤ (i 0).val ∧ (i 0).val < win0_4.index _ (0 : Fin 2) * 5000 + 5000
    rw [eo0]; show (i 0).val / 5000 * 5000 ≤ (i 0).val ∧ (i 0).val < (i 0).val / 5000 * 5000 + 5000; omega
  | ⟨1, _⟩ =>
    show win0_4.index _ (1 : Fin 2) * 128 ≤ (i 1).val ∧ (i 1).val < win0_4.index _ (1 : Fin 2) * 128 + 128
    rw [eo1]; omega

/-- After the call the result array holds the layer of the arrays as the call found them. -/
theorem arr0 (c : Dev nD) : (dat0 V c).arrAt 4 cfg0.N
    = denseRelu (N := 50000) (D := 128) (V c main_v25) (V c main_v26) (V c main_arg3) (V c main_v27) :=
  (dat0 V c).arrAt_eq_of_cover 4 _ (fun t _ => flushed0 V c t) cover0

end Cert.KernelIdeal.Blocks

end
-- ==== Proof.Region1.lean ====
/-
  The second layer's call (the first with a residual), from blocks of rows to the whole array.

  The grid has ten points; point `t` reads rows `5000 t … 5000 t + 4999` of the aggregated features, of the residual and of the
  column of per-node factors, the whole weight matrix and the whole bias row, and writes the same rows of the result.
  One entry of a layer depends on one row of the features, one residual entry and one factor, so rows `5000 t …` of the layer of
  the whole arrays are the layer of those rows; and the ten row blocks cover the 50000 rows. So after the call the
  result array holds `denseResRelu` of the arrays as the call found them.
-/
import proofs.«126240_j20607253086494_1_alg».proof.Proof.Gen.KernelIdeal.Frame
import proofs.«126240_j20607253086494_1_alg».proof.Proof.Layer
import Idealize.ShloMosaic.Lib.Pipeline.Value

noncomputable section

namespace Cert.KernelIdeal.Blocks

open Idealize.ShloMosaic Idealize.ShloMosaic.TcCoe Idealize.SL.Sem Idealize.ShloMosaic.ValueIdx
open Idealize.ShloMosaic.Pipeline (Dat)
open Cert.KernelIdeal Cert.KernelIdeal.Gen Cert.Gcn

variable (V : (c : Dev nD) → (b : Ref sig .tc) → Buf (Elt Ideal) ((c : Thread nD τ).loc b))

theorem hz1 : (![0, 0] : Fin 2 → Nat) = fun _ => 0 := funext fun a => by fin_cases a <;> rfl

/-- The body's stored value is the layer function of its loaded blocks. -/
theorem pay1_eq (x0 : FVec Ideal S5000x128 .f32) (x1 : FVec Ideal S5000x1 .f32) (x2 : FVec Ideal S128x128 .f32) (x3 : FVec Ideal S1x128 .f32) (x4 : FVec Ideal S5000x128 .f32) :
    k1_pay1 x0 x1 x2 x3 x4 = denseResRelu x0 x1 x2 x3 x4 :=
  body_res_relu_eq dot_S5000x128_S128x128_S5000x128_1_0_0_1_n_n rfl x0 x1 x2 x3 x4 _ _ _ _ _ _ _

/-- The block indices, decided over the ten points: the row windows move with the point, the weights and the bias stay. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- What point `t` writes back is rows `5000 t …` of the layer of the whole arrays. -/
theorem flushed1 (c : Dev nD) (t : Fin cfg1.N) :
    (dat1 V c).flushed 5 t = ((cfg1.win 5).blk t).view.read (Elt Ideal)
      (denseResRelu (N := 50000) (D := 128) (V c main_v57) (V c main_v58) (V c main_arg5) (V c main_v59) (V c main_v44)) := by
  show (cfg1.win 5).cut (grid1.coords t) ((dat1 V c).after 5 t) = _
  rw [after1_5]
  unfold out1_5
  rw [View.canon_unit_zero hz1]
  simp only [View.ld_unit_zero (S := S5000x128) hz1, View.ld_unit_zero (S := S5000x1) hz1, View.ld_unit_zero (S := S128x128) hz1, View.ld_unit_zero (S := S1x128) hz1]
  rw [pay1_eq]
  obtain ⟨e00, e01, e10, e11, e20, e21, e30, e31, e40, e41, eo0, eo1⟩ := idx_facts1 t
  funext j
  show max (lin (iblk1 V c 0 t) (iblk1 V c 1 t) (iblk1 V c 2 t) (iblk1 V c 3 t) (j 0) (j 1) + iblk1 V c 4 t j) zero32
     = max (lin (N := 50000) (D := 128) (V c main_v57) (V c main_v58) (V c main_arg5) (V c main_v59) ((((cfg1.win 5).blk t).view.emb j) 0) ((((cfg1.win 5).blk t).view.emb j) 1) + V c main_v44 (((cfg1.win 5).blk t).view.emb j)) zero32
  have hr : iblk1 V c 4 t j = V c main_v44 (((cfg1.win 5).blk t).view.emb j) := by
    show V c main_v44 (((cfg1.win 4).blk t).view.emb j) = V c main_v44 (((cfg1.win 5).blk t).view.emb j)
    refine congrArg (V c main_v44) ?_
    funext a; apply Fin.ext
    match a with
    | ⟨0, _⟩ => show win1_4.index t (0 : Fin 2) * 5000 + 1 * (j 0).val = win1_5.index t (0 : Fin 2) * 5000 + 1 * (j 0).val; rw [e40, eo0]
    | ⟨1, _⟩ => show win1_4.index t (1 : Fin 2) * 128 + 1 * (j 1).val = win1_5.index t (1 : Fin 2) * 128 + 1 * (j 1).val; rw [e41, eo1]
  rw [hr]
  refine congrArg (fun z => max (z + V c main_v44 (((cfg1.win 5).blk t).view.emb j)) zero32) (lin_congr _ _ _ _ _ _ _ _ _ _ _ _ ?_ ?_ ?_ ?_)
  · intro i
    show V c main_v57 (((cfg1.win 0).blk t).view.emb (ix2 (n0 := 5000) (n1 := 128) (j 0) i))
      = V c main_v57 (ix2 (n0 := 50000) (n1 := 128) ((((cfg1.win 5).blk t).view.emb j) 0) i)
    refine congrArg (V c main_v57) ?_
    funext a; apply Fin.ext
    match a with
    | ⟨0, _⟩ => show win1_0.index t (0 : Fin 2) * 5000 + 1 * (j 0).val = win1_5.index t (0 : Fin 2) * 5000 + 1 * (j 0).val; rw [e00, eo0]
    | ⟨1, _⟩ => show win1_0.index t (1 : Fin 2) * 128 + 1 * i.val = i.val; rw [e01]; omega
  · show V c main_v58 (((cfg1.win 1).blk t).view.emb (ix2 (n0 := 5000) (n1 := 1) (j 0) (0 : Fin 1)))
      = V c main_v58 (ix2 (n0 := 50000) (n1 := 1) ((((cfg1.win 5).blk t).view.emb j) 0) (0 : Fin 1))
    refine congrArg (V c main_v58) ?_
    funext a; apply Fin.ext
    match a with
    | ⟨0, _⟩ => show win1_1.index t (0 : Fin 2) * 5000 + 1 * (j 0).val = win1_5.index t (0 : Fin 2) * 5000 + 1 * (j 0).val; rw [e10, eo0]
    | ⟨1, _⟩ => show win1_1.index t (1 : Fin 2) * 1 + 1 * 0 = 0; rw [e11]
  · intro i
    show V c main_arg5 (((cfg1.win 2).blk t).view.emb (ix2 (n0 := 128) (n1 := 128) i (j 1)))
      = V c main_arg5 (ix2 (n0 := 128) (n1 := 128) i ((((cfg1.win 5).blk t).view.emb j) 1))
    refine congrArg (V c main_arg5) ?_
    funext a; apply Fin.ext
    match a with
    | ⟨0, _⟩ => show win1_2.index t (0 : Fin 2) * 128 + 1 * i.val = i.val; rw [e20]; omega
    | ⟨1, _⟩ => show win1_2.index t (1 : Fin 2) * 128 + 1 * (j 1).val = win1_5.index t (1 : Fin 2) * 128 + 1 * (j 1).val; rw [e21, eo1]
  · show V c main_v59 (((cfg1.win 3).blk t).view.emb (ix2 (n0 := 1) (n1 := 128) (0 : Fin 1) (j 1)))
      = V c main_v59 (ix2 (n0 := 1) (n1 := 128) (0 : Fin 1) ((((cfg1.win 5).blk t).view.emb j) 1))
    refine congrArg (V c main_v59) ?_
    funext a; apply Fin.ext
    match a with
    | ⟨0, _⟩ => show win1_3.index t (0 : Fin 2) * 1 + 1 * 0 = 0; rw [e30]
    | ⟨1, _⟩ => show win1_3.index t (1 : Fin 2) * 128 + 1 * (j 1).val = win1_5.index t (1 : Fin 2) * 128 + 1 * (j 1).val; rw [e31, eo1]

/-- An index of the result array is in point `t`'s block iff each coordinate is in the block's range on its axis. -/
theorem mem_blk1 (t : Fin cfg1.N) (i : S50000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v60).slice (win1_5.rect t)).set ↔ _
  rw [View.set_slice_whole, Rect.mem_set_unit]
  exact Iff.rfl

/-- Row `r` is in the block of point `r / 5000`: the ten blocks cover the array. -/
theorem cover1 (i : S50000x128.Idx) : ∃ t : Fin cfg1.N, (cfg1.win 5).flush t = true ∧ i ∈ ((cfg1.win 5).blk t).view.set := by
  have hN : cfg1.N = 10 := N_1
  have hi0 : (i 0).val < 50000 := idx2_lt0 i
  have hi1 : (i 1).val < 128 := idx2_lt1 i
  refine ⟨⟨(i 0).val / 5000, by rw [hN]; omega⟩, flush1_5 _, ?_⟩
  rw [mem_blk1]
  obtain ⟨-, -, -, -, -, -, -, -, -, -, eo0, eo1⟩ := idx_facts1 ⟨(i 0).val / 5000, by rw [hN]; omega⟩
  intro a
  match a with
  | ⟨0, _⟩ =>
    show win1_5.index _ (0 : Fin 2) * 5000 ≤ (i 0).val ∧ (i 0).val < win1_5.index _ (0 : Fin 2) * 5000 + 5000
    rw [eo0]; show (i 0).val / 5000 * 5000 ≤ (i 0).val ∧ (i 0).val < (i 0).val / 5000 * 5000 + 5000; omega
  | ⟨1, _⟩ =>
    show win1_5.index _ (1 : Fin 2) * 128 ≤ (i 1).val ∧ (i 1).val < win1_5.index _ (1 : Fin 2) * 128 + 128
    rw [eo1]; omega

/-- After the call the result array holds the layer of the arrays as the call found them. -/
theorem arr1 (c : Dev nD) : (dat1 V c).arrAt 5 cfg1.N
    = denseResRelu (N := 50000) (D := 128) (V c main_v57) (V c main_v58) (V c main_arg5) (V c main_v59) (V c main_v44) :=
  (dat1 V c).arrAt_eq_of_cover 5 _ (fun t _ => flushed1 V c t) cover1

end Cert.KernelIdeal.Blocks

end
-- ==== Proof.Region2.lean ====
/-
  The third layer's call (the second with a residual), from blocks of rows to the whole array.

  The grid has ten points; point `t` reads rows `5000 t … 5000 t + 4999` of the aggregated features, of the residual and of the
  column of per-node factors, the whole weight matrix and the whole bias row, and writes the same rows of the result.
  One entry of a layer depends on one row of the features, one residual entry and one factor, so rows `5000 t …` of the layer of
  the whole arrays are the layer of those rows; and the ten row blocks cover the 50000 rows. So after the call the
  result array holds `denseResRelu` of the arrays as the call found them.
-/
import proofs.«126240_j20607253086494_1_alg».proof.Proof.Gen.KernelIdeal.Frame
import proofs.«126240_j20607253086494_1_alg».proof.Proof.Layer
import Idealize.ShloMosaic.Lib.Pipeline.Value

noncomputable section

namespace Cert.KernelIdeal.Blocks

open Idealize.ShloMosaic Idealize.ShloMosaic.TcCoe Idealize.SL.Sem Idealize.ShloMosaic.ValueIdx
open Idealize.ShloMosaic.Pipeline (Dat)
open Cert.KernelIdeal Cert.KernelIdeal.Gen Cert.Gcn

variable (V : (c : Dev nD) → (b : Ref sig .tc) → Buf (Elt Ideal) ((c : Thread nD τ).loc b))

theorem hz2 : (![0, 0] : Fin 2 → Nat) = fun _ => 0 := funext fun a => by fin_cases a <;> rfl

/-- The body's stored value is the layer function of its loaded blocks. -/
theorem pay2_eq (x0 : FVec Ideal S5000x128 .f32) (x1 : FVec Ideal S5000x1 .f32) (x2 : FVec Ideal S128x128 .f32) (x3 : FVec Ideal S1x128 .f32) (x4 : FVec Ideal S5000x128 .f32) :
    k2_pay1 x0 x1 x2 x3 x4 = denseResRelu x0 x1 x2 x3 x4 :=
  body_res_relu_eq dot_S5000x128_S128x128_S5000x128_1_0_0_1_n_n rfl x0 x1 x2 x3 x4 _ _ _ _ _ _ _

/-- The block indices, decided over the ten points: the row windows move with the point, the weights and the bias stay. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

/-- What point `t` writes back is rows `5000 t …` of the layer of the whole arrays. -/
theorem flushed2 (c : Dev nD) (t : Fin cfg2.N) :
    (dat2 V c).flushed 5 t = ((cfg2.win 5).blk t).view.read (Elt Ideal)
      (denseResRelu (N := 50000) (D := 128) (V c main_v89) (V c main_v90) (V c main_arg7) (V c main_v91) (V c main_v76)) := by
  show (cfg2.win 5).cut (grid2.coords t) ((dat2 V c).after 5 t) = _
  rw [after2_5]
  unfold out2_5
  rw [View.canon_unit_zero hz2]
  simp only [View.ld_unit_zero (S := S5000x128) hz2, View.ld_unit_zero (S := S5000x1) hz2, View.ld_unit_zero (S := S128x128) hz2, View.ld_unit_zero (S := S1x128) hz2]
  rw [pay2_eq]
  obtain ⟨e00, e01, e10, e11, e20, e21, e30, e31, e40, e41, eo0, eo1⟩ := idx_facts2 t
  funext j
  show max (lin (iblk2 V c 0 t) (iblk2 V c 1 t) (iblk2 V c 2 t) (iblk2 V c 3 t) (j 0) (j 1) + iblk2 V c 4 t j) zero32
     = max (lin (N := 50000) (D := 128) (V c main_v89) (V c main_v90) (V c main_arg7) (V c main_v91) ((((cfg2.win 5).blk t).view.emb j) 0) ((((cfg2.win 5).blk t).view.emb j) 1) + V c main_v76 (((cfg2.win 5).blk t).view.emb j)) zero32
  have hr : iblk2 V c 4 t j = V c main_v76 (((cfg2.win 5).blk t).view.emb j) := by
    show V c main_v76 (((cfg2.win 4).blk t).view.emb j) = V c main_v76 (((cfg2.win 5).blk t).view.emb j)
    refine congrArg (V c main_v76) ?_
    funext a; apply Fin.ext
    match a with
    | ⟨0, _⟩ => show win2_4.index t (0 : Fin 2) * 5000 + 1 * (j 0).val = win2_5.index t (0 : Fin 2) * 5000 + 1 * (j 0).val; rw [e40, eo0]
    | ⟨1, _⟩ => show win2_4.index t (1 : Fin 2) * 128 + 1 * (j 1).val = win2_5.index t (1 : Fin 2) * 128 + 1 * (j 1).val; rw [e41, eo1]
  rw [hr]
  refine congrArg (fun z => max (z + V c main_v76 (((cfg2.win 5).blk t).view.emb j)) zero32) (lin_congr _ _ _ _ _ _ _ _ _ _ _ _ ?_ ?_ ?_ ?_)
  · intro i
    show V c main_v89 (((cfg2.win 0).blk t).view.emb (ix2 (n0 := 5000) (n1 := 128) (j 0) i))
      = V c main_v89 (ix2 (n0 := 50000) (n1 := 128) ((((cfg2.win 5).blk t).view.emb j) 0) i)
    refine congrArg (V c main_v89) ?_
    funext a; apply Fin.ext
    match a with
    | ⟨0, _⟩ => show win2_0.index t (0 : Fin 2) * 5000 + 1 * (j 0).val = win2_5.index t (0 : Fin 2) * 5000 + 1 * (j 0).val; rw [e00, eo0]
    | ⟨1, _⟩ => show win2_0.index t (1 : Fin 2) * 128 + 1 * i.val = i.val; rw [e01]; omega
  · show V c main_v90 (((cfg2.win 1).blk t).view.emb (ix2 (n0 := 5000) (n1 := 1) (j 0) (0 : Fin 1)))
      = V c main_v90 (ix2 (n0 := 50000) (n1 := 1) ((((cfg2.win 5).blk t).view.emb j) 0) (0 : Fin 1))
    refine congrArg (V c main_v90) ?_
    funext a; apply Fin.ext
    match a with
    | ⟨0, _⟩ => show win2_1.index t (0 : Fin 2) * 5000 + 1 * (j 0).val = win2_5.index t (0 : Fin 2) * 5000 + 1 * (j 0).val; rw [e10, eo0]
    | ⟨1, _⟩ => show win2_1.index t (1 : Fin 2) * 1 + 1 * 0 = 0; rw [e11]
  · intro i
    show V c main_arg7 (((cfg2.win 2).blk t).view.emb (ix2 (n0 := 128) (n1 := 128) i (j 1)))
      = V c main_arg7 (ix2 (n0 := 128) (n1 := 128) i ((((cfg2.win 5).blk t).view.emb j) 1))
    refine congrArg (V c main_arg7) ?_
    funext a; apply Fin.ext
    match a with
    | ⟨0, _⟩ => show win2_2.index t (0 : Fin 2) * 128 + 1 * i.val = i.val; rw [e20]; omega
    | ⟨1, _⟩ => show win2_2.index t (1 : Fin 2) * 128 + 1 * (j 1).val = win2_5.index t (1 : Fin 2) * 128 + 1 * (j 1).val; rw [e21, eo1]
  · show V c main_v91 (((cfg2.win 3).blk t).view.emb (ix2 (n0 := 1) (n1 := 128) (0 : Fin 1) (j 1)))
      = V c main_v91 (ix2 (n0 := 1) (n1 := 128) (0 : Fin 1) ((((cfg2.win 5).blk t).view.emb j) 1))
    refine congrArg (V c main_v91) ?_
    funext a; apply Fin.ext
    match a with
    | ⟨0, _⟩ => show win2_3.index t (0 : Fin 2) * 1 + 1 * 0 = 0; rw [e30]
    | ⟨1, _⟩ => show win2_3.index t (1 : Fin 2) * 128 + 1 * (j 1).val = win2_5.index t (1 : Fin 2) * 128 + 1 * (j 1).val; rw [e31, eo1]

/-- An index of the result array is in point `t`'s block iff each coordinate is in the block's range on its axis. -/
theorem mem_blk2 (t : Fin cfg2.N) (i : S50000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v92).slice (win2_5.rect t)).set ↔ _
  rw [View.set_slice_whole, Rect.mem_set_unit]
  exact Iff.rfl

/-- Row `r` is in the block of point `r / 5000`: the ten blocks cover the array. -/
theorem cover2 (i : S50000x128.Idx) : ∃ t : Fin cfg2.N, (cfg2.win 5).flush t = true ∧ i ∈ ((cfg2.win 5).blk t).view.set := by
  have hN : cfg2.N = 10 := N_2
  have hi0 : (i 0).val < 50000 := idx2_lt0 i
  have hi1 : (i 1).val < 128 := idx2_lt1 i
  refine ⟨⟨(i 0).val / 5000, by rw [hN]; omega⟩, flush2_5 _, ?_⟩
  rw [mem_blk2]
  obtain ⟨-, -, -, -, -, -, -, -, -, -, eo0, eo1⟩ := idx_facts2 ⟨(i 0).val / 5000, by rw [hN]; omega⟩
  intro a
  match a with
  | ⟨0, _⟩ =>
    show win2_5.index _ (0 : Fin 2) * 5000 ≤ (i 0).val ∧ (i 0).val < win2_5.index _ (0 : Fin 2) * 5000 + 5000
    rw [eo0]; show (i 0).val / 5000 * 5000 ≤ (i 0).val ∧ (i 0).val < (i 0).val / 5000 * 5000 + 5000; omega
  | ⟨1, _⟩ =>
    show win2_5.index _ (1 : Fin 2) * 128 ≤ (i 1).val ∧ (i 1).val < win2_5.index _ (1 : Fin 2) * 128 + 128
    rw [eo1]; omega

/-- After the call the result array holds the layer of the arrays as the call found them. -/
theorem arr2 (c : Dev nD) : (dat2 V c).arrAt 5 cfg2.N
    = denseResRelu (N := 50000) (D := 128) (V c main_v89) (V c main_v90) (V c main_arg7) (V c main_v91) (V c main_v76) :=
  (dat2 V c).arrAt_eq_of_cover 5 _ (fun t _ => flushed2 V c t) cover2

end Cert.KernelIdeal.Blocks

end
-- ==== Proof.Region3.lean ====
/-
  The last layer's call (64 output columns, no rectifier), from blocks of rows to the whole array.

  The grid has ten points; point `t` reads rows `5000 t … 5000 t + 4999` of the aggregated features and of the
  column of per-node factors, the whole weight matrix and the whole bias row, and writes the same rows of the result.
  One entry of a layer depends on one row of the features and one factor, so rows `5000 t …` of the layer of
  the whole arrays are the layer of those rows; and the ten row blocks cover the 50000 rows. So after the call the
  result array holds `dense` of the arrays as the call found them.
-/
import proofs.«126240_j20607253086494_1_alg».proof.Proof.Gen.KernelIdeal.Frame
import proofs.«126240_j20607253086494_1_alg».proof.Proof.Layer
import Idealize.ShloMosaic.Lib.Pipeline.Value

noncomputable section

namespace Cert.KernelIdeal.Blocks

open Idealize.ShloMosaic Idealize.ShloMosaic.TcCoe Idealize.SL.Sem Idealize.ShloMosaic.ValueIdx
open Idealize.ShloMosaic.Pipeline (Dat)
open Cert.KernelIdeal Cert.KernelIdeal.Gen Cert.Gcn

variable (V : (c : Dev nD) → (b : Ref sig .tc) → Buf (Elt Ideal) ((c : Thread nD τ).loc b))

theorem hz3 : (![0, 0] : Fin 2 → Nat) = fun _ => 0 := funext fun a => by fin_cases a <;> rfl

/-- The body's stored value is the layer function of its loaded blocks. -/
theorem pay3_eq (x0 : FVec Ideal S5000x128 .f32) (x1 : FVec Ideal S5000x1 .f32) (x2 : FVec Ideal S128x64 .f32) (x3 : FVec Ideal S1x64 .f32) :
    k3_pay1 x0 x1 x2 x3 = dense x0 x1 x2 x3 :=
  body_eq dot_S5000x128_S128x64_S5000x64_1_0_0_1_n_n rfl x0 x1 x2 x3 _ _ _ _ _ _

/-- The block indices, decided over the ten points: the row windows move with the point, the weights and the bias stay. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- What point `t` writes back is rows `5000 t …` of the layer of the whole arrays. -/
theorem flushed3 (c : Dev nD) (t : Fin cfg3.N) :
    (dat3 V c).flushed 4 t = ((cfg3.win 4).blk t).view.read (Elt Ideal)
      (dense (N := 50000) (D := 64) (V c main_v105) (V c main_v106) (V c main_arg9) (V c main_v107)) := by
  show (cfg3.win 4).cut (grid3.coords t) ((dat3 V c).after 4 t) = _
  rw [after3_4]
  unfold out3_4
  rw [View.canon_unit_zero hz3]
  simp only [View.ld_unit_zero (S := S5000x128) hz3, View.ld_unit_zero (S := S5000x1) hz3, View.ld_unit_zero (S := S128x64) hz3, View.ld_unit_zero (S := S1x64) hz3]
  rw [pay3_eq]
  obtain ⟨e00, e01, e10, e11, e20, e21, e30, e31, eo0, eo1⟩ := idx_facts3 t
  funext j
  show lin (iblk3 V c 0 t) (iblk3 V c 1 t) (iblk3 V c 2 t) (iblk3 V c 3 t) (j 0) (j 1)
     = lin (N := 50000) (D := 64) (V c main_v105) (V c main_v106) (V c main_arg9) (V c main_v107) ((((cfg3.win 4).blk t).view.emb j) 0) ((((cfg3.win 4).blk t).view.emb j) 1)
  refine lin_congr _ _ _ _ _ _ _ _ _ _ _ _ ?_ ?_ ?_ ?_
  · intro i
    show V c main_v105 (((cfg3.win 0).blk t).view.emb (ix2 (n0 := 5000) (n1 := 128) (j 0) i))
      = V c main_v105 (ix2 (n0 := 50000) (n1 := 128) ((((cfg3.win 4).blk t).view.emb j) 0) i)
    refine congrArg (V c main_v105) ?_
    funext a; apply Fin.ext
    match a with
    | ⟨0, _⟩ => show win3_0.index t (0 : Fin 2) * 5000 + 1 * (j 0).val = win3_4.index t (0 : Fin 2) * 5000 + 1 * (j 0).val; rw [e00, eo0]
    | ⟨1, _⟩ => show win3_0.index t (1 : Fin 2) * 128 + 1 * i.val = i.val; rw [e01]; omega
  · show V c main_v106 (((cfg3.win 1).blk t).view.emb (ix2 (n0 := 5000) (n1 := 1) (j 0) (0 : Fin 1)))
      = V c main_v106 (ix2 (n0 := 50000) (n1 := 1) ((((cfg3.win 4).blk t).view.emb j) 0) (0 : Fin 1))
    refine congrArg (V c main_v106) ?_
    funext a; apply Fin.ext
    match a with
    | ⟨0, _⟩ => show win3_1.index t (0 : Fin 2) * 5000 + 1 * (j 0).val = win3_4.index t (0 : Fin 2) * 5000 + 1 * (j 0).val; rw [e10, eo0]
    | ⟨1, _⟩ => show win3_1.index t (1 : Fin 2) * 1 + 1 * 0 = 0; rw [e11]
  · intro i
    show V c main_arg9 (((cfg3.win 2).blk t).view.emb (ix2 (n0 := 128) (n1 := 64) i (j 1)))
      = V c main_arg9 (ix2 (n0 := 128) (n1 := 64) i ((((cfg3.win 4).blk t).view.emb j) 1))
    refine congrArg (V c main_arg9) ?_
    funext a; apply Fin.ext
    match a with
    | ⟨0, _⟩ => show win3_2.index t (0 : Fin 2) * 128 + 1 * i.val = i.val; rw [e20]; omega
    | ⟨1, _⟩ => show win3_2.index t (1 : Fin 2) * 64 + 1 * (j 1).val = win3_4.index t (1 : Fin 2) * 64 + 1 * (j 1).val; rw [e21, eo1]
  · show V c main_v107 (((cfg3.win 3).blk t).view.emb (ix2 (n0 := 1) (n1 := 64) (0 : Fin 1) (j 1)))
      = V c main_v107 (ix2 (n0 := 1) (n1 := 64) (0 : Fin 1) ((((cfg3.win 4).blk t).view.emb j) 1))
    refine congrArg (V c main_v107) ?_
    funext a; apply Fin.ext
    match a with
    | ⟨0, _⟩ => show win3_3.index t (0 : Fin 2) * 1 + 1 * 0 = 0; rw [e30]
    | ⟨1, _⟩ => show win3_3.index t (1 : Fin 2) * 64 + 1 * (j 1).val = win3_4.index t (1 : Fin 2) * 64 + 1 * (j 1).val; rw [e31, eo1]

/-- An index of the result array is in point `t`'s block iff each coordinate is in the block's range on its axis. -/
theorem mem_blk3 (t : Fin cfg3.N) (i : S50000x64.Idx) :
    i ∈ ((cfg3.win 4).blk t).view.set ↔ ∀ a : Fin 2, win3_4.index t a * S5000x64.size a ≤ (i a).val
      ∧ (i a).val < win3_4.index t a * S5000x64.size a + S5000x64.size a := by
  show i ∈ ((View.whole main_v108).slice (win3_4.rect t)).set ↔ _
  rw [View.set_slice_whole, Rect.mem_set_unit]
  exact Iff.rfl

/-- Row `r` is in the block of point `r / 5000`: the ten blocks cover the array. -/
theorem cover3 (i : S50000x64.Idx) : ∃ t : Fin cfg3.N, (cfg3.win 4).flush t = true ∧ i ∈ ((cfg3.win 4).blk t).view.set := by
  have hN : cfg3.N = 10 := N_3
  have hi0 : (i 0).val < 50000 := idx2_lt0 i
  have hi1 : (i 1).val < 64 := idx2_lt1 i
  refine ⟨⟨(i 0).val / 5000, by rw [hN]; omega⟩, flush3_4 _, ?_⟩
  rw [mem_blk3]
  obtain ⟨-, -, -, -, -, -, -, -, eo0, eo1⟩ := idx_facts3 ⟨(i 0).val / 5000, by rw [hN]; omega⟩
  intro a
  match a with
  | ⟨0, _⟩ =>
    show win3_4.index _ (0 : Fin 2) * 5000 ≤ (i 0).val ∧ (i 0).val < win3_4.index _ (0 : Fin 2) * 5000 + 5000
    rw [eo0]; show (i 0).val / 5000 * 5000 ≤ (i 0).val ∧ (i 0).val < (i 0).val / 5000 * 5000 + 5000; omega
  | ⟨1, _⟩ =>
    show win3_4.index _ (1 : Fin 2) * 64 ≤ (i 1).val ∧ (i 1).val < win3_4.index _ (1 : Fin 2) * 64 + 64
    rw [eo1]; omega

/-- After the call the result array holds the layer of the arrays as the call found them. -/
theorem arr3 (c : Dev nD) : (dat3 V c).arrAt 4 cfg3.N
    = dense (N := 50000) (D := 64) (V c main_v105) (V c main_v106) (V c main_arg9) (V c main_v107) :=
  (dat3 V c).arrAt_eq_of_cover 4 _ (fun t _ => flushed3 V c t) cover3

end Cert.KernelIdeal.Blocks

end
-- ==== Proof.Walk.lean ====
/-
  The idealized kernel program, boundary by boundary: what each buffer the four calls read holds when its call is
  entered, as a function of the launch contents of the arguments.

  Between the calls the program runs the same host operations as the reference: the degree factors, the scaled
  features gathered along the sources and scatter-added along the destinations, the residual. Each call's result
  array holds its layer function of the arrays the call found (Region0 … Region3); every buffer a stretch or a call
  does not write keeps its contents. So the last call's result array holds `kerNet` of the arguments.
-/
import proofs.«126240_j20607253086494_1_alg».proof.Proof.Gen.KernelIdeal.Frame
import proofs.«126240_j20607253086494_1_alg».proof.Proof.Spec
import proofs.«126240_j20607253086494_1_alg».proof.Proof.Region0
import proofs.«126240_j20607253086494_1_alg».proof.Proof.Region1
import proofs.«126240_j20607253086494_1_alg».proof.Proof.Region2
import proofs.«126240_j20607253086494_1_alg».proof.Proof.Region3
import Idealize.ShloMosaic.Lib.StableHlo.Run

set_option maxRecDepth 16384

noncomputable section

namespace Cert.KernelIdeal.Walk

open Idealize.ShloMosaic Idealize.ShloMosaic.TcCoe Idealize.SL.Sem Idealize.ShloMosaic.StableHlo
open Cert.KernelIdeal Cert.KernelIdeal.Gen

/-! ## Up to the first call, at any float values

The five stretches before the first call compute the two degree factors (through two calls of the clipping function),
the scaled features and their aggregate, and re-lay the in-degree factor as a column and the first bias as a row. Read
back from the launch memory, each of these buffers holds the named function of the arguments; the arguments are as
launched. (Stated at any float values: nothing here depends on the arithmetic.) -/

section Pre
variable {F : FTy → Type} [FloatOps F] (m : (ℓ : Loc nD τ sig) → Buf (Elt F) ℓ) (ρ : Dev nD → PrngReg) (c : Dev nD)

set_option maxHeartbeats 1000000 in
theorem W5_v9 : W5 m ρ c (Proc.devRef .tc main_v9) = Cert.Gcn.norm (F := F) (m ((c.tc : Thread nD τ).loc main_arg2)) := by
  unfold W5 W4 W3 W2 W1 W0
  after_results_simp <;> rfl
set_option maxHeartbeats 1000000 in
theorem W5_v12 : W5 m ρ c (Proc.devRef .tc main_v12) = Cert.Gcn.norm (F := F) (m ((c.tc : Thread nD τ).loc main_arg1)) := by
  unfold W5 W4 W3 W2 W1 W0
  after_results_simp <;> rfl
set_option maxHeartbeats 1000000 in
theorem W5_v25 : W5 m ρ c (Proc.devRef .tc main_v25) = Cert.Gcn.agg (F := F) (m ((c.tc : Thread nD τ).loc main_arg0)) (m ((c.tc : Thread nD τ).loc main_arg1)) (m ((c.tc : Thread nD τ).loc main_arg2)) := by
  unfold W5 W4 W3 W2 W1 W0
  after_results_simp <;> rfl
set_option maxHeartbeats 1000000 in
theorem W5_v26 : W5 m ρ c (Proc.devRef .tc main_v26) = Cert.Gcn.colv (Cert.Gcn.norm (F := F) (m ((c.tc : Thread nD τ).loc main_arg2))) := by
  unfold W5 W4 W3 W2 W1 W0
  after_results_simp <;> rfl
set_option maxHeartbeats 1000000 in
theorem W5_v27 : W5 m ρ c (Proc.devRef .tc main_v27) = Cert.Gcn.rowv (F := F) (m ((c.tc : Thread nD τ).loc main_arg4)) := by
  unfold W5 W4 W3 W2 W1 W0
  after_results_simp <;> rfl
set_option maxHeartbeats 1000000 in
theorem W5_arg0 : W5 m ρ c (Proc.devRef .tc main_arg0) = m ((c.tc : Thread nD τ).loc main_arg0) := by
  unfold W5 W4 W3 W2 W1 W0
  after_results_simp <;> rfl
set_option maxHeartbeats 1000000 in
theorem W5_arg1 : W5 m ρ c (Proc.devRef .tc main_arg1) = m ((c.tc : Thread nD τ).loc main_arg1) := by
  unfold W5 W4 W3 W2 W1 W0
  after_results_simp <;> rfl
set_option maxHeartbeats 1000000 in
theorem W5_arg2 : W5 m ρ c (Proc.devRef .tc main_arg2) = m ((c.tc : Thread nD τ).loc main_arg2) := by
  unfold W5 W4 W3 W2 W1 W0
  after_results_simp <;> rfl
set_option maxHeartbeats 1000000 in
theorem W5_arg3 : W5 m ρ c (Proc.devRef .tc main_arg3) = m ((c.tc : Thread nD τ).loc main_arg3) := by
  unfold W5 W4 W3 W2 W1 W0
  after_results_simp <;> rfl
set_option maxHeartbeats 1000000 in
theorem W5_arg5 : W5 m ρ c (Proc.devRef .tc main_arg5) = m ((c.tc : Thread nD τ).loc main_arg5) := by
  unfold W5 W4 W3 W2 W1 W0
  after_results_simp <;> rfl
set_option maxHeartbeats 1000000 in
theorem W5_arg6 : W5 m ρ c (Proc.devRef .tc main_arg6) = m ((c.tc : Thread nD τ).loc main_arg6) := by
  unfold W5 W4 W3 W2 W1 W0
  after_results_simp <;> rfl
set_option maxHeartbeats 1000000 in
theorem W5_arg7 : W5 m ρ c (Proc.devRef .tc main_arg7) = m ((c.tc : Thread nD τ).loc main_arg7) := by
  unfold W5 W4 W3 W2 W1 W0
  after_results_simp <;> rfl
set_option maxHeartbeats 1000000 in
theorem W5_arg8 : W5 m ρ c (Proc.devRef .tc main_arg8) = m ((c.tc : Thread nD τ).loc main_arg8) := by
  unfold W5 W4 W3 W2 W1 W0
  after_results_simp <;> rfl
set_option maxHeartbeats 1000000 in
theorem W5_arg9 : W5 m ρ c (Proc.devRef .tc main_arg9) = m ((c.tc : Thread nD τ).loc main_arg9) := by
  unfold W5 W4 W3 W2 W1 W0
  after_results_simp <;> rfl
set_option maxHeartbeats 1000000 in
theorem W5_arg10 : W5 m ρ c (Proc.devRef .tc main_arg10) = m ((c.tc : Thread nD τ).loc main_arg10) := by
  unfold W5 W4 W3 W2 W1 W0
  after_results_simp <;> rfl

end Pre

/-! ## Through the four calls, on the extended reals -/

section Post
variable (m : (ℓ : Loc nD τ sig) → Buf (Elt Ideal) ℓ) (ρ : Dev nD → PrngReg) (c : Dev nD)

abbrev a0 : FVec Ideal S50000x128 .f32 := m ((c.tc : Thread nD τ).loc main_arg0)
abbrev a1 : IVec S800000 32 := m ((c.tc : Thread nD τ).loc main_arg1)
abbrev a2 : IVec S800000 32 := m ((c.tc : Thread nD τ).loc main_arg2)
abbrev a3 : FVec Ideal S128x128 .f32 := m ((c.tc : Thread nD τ).loc main_arg3)
abbrev a4 : FVec Ideal S128 .f32 := m ((c.tc : Thread nD τ).loc main_arg4)
abbrev a5 : FVec Ideal S128x128 .f32 := m ((c.tc : Thread nD τ).loc main_arg5)
abbrev a6 : FVec Ideal S128 .f32 := m ((c.tc : Thread nD τ).loc main_arg6)
abbrev a7 : FVec Ideal S128x128 .f32 := m ((c.tc : Thread nD τ).loc main_arg7)
abbrev a8 : FVec Ideal S128 .f32 := m ((c.tc : Thread nD τ).loc main_arg8)
abbrev a9 : FVec Ideal S128x64 .f32 := m ((c.tc : Thread nD τ).loc main_arg9)
abbrev a10 : FVec Ideal S64 .f32 := m ((c.tc : Thread nD τ).loc main_arg10)

/-- The in-degree factor (the destinations are argument 2) and the out-degree factor (the sources are argument 1). -/
abbrev inn : FVec Ideal S50000 .f32 := Cert.Gcn.norm (F := Ideal) (a2 m c)
abbrev out : FVec Ideal S50000 .f32 := Cert.Gcn.norm (F := Ideal) (a1 m c)
/-- The residual both middle layers add. -/
abbrev rs : FVec Ideal S50000x128 .f32 := Cert.Gcn.resid (F := Ideal) (a0 m c) (a1 m c) (a2 m c)
/-- The four layers' results. -/
abbrev h1 : FVec Ideal S50000x128 .f32 :=
  Cert.Gcn.denseRelu (N := 50000) (D := 128) (Cert.Gcn.agg (F := Ideal) (a0 m c) (a1 m c) (a2 m c)) (Cert.Gcn.colv (inn m c)) (a3 m c) (Cert.Gcn.rowv (a4 m c))
abbrev h2 : FVec Ideal S50000x128 .f32 :=
  Cert.Gcn.denseResRelu (N := 50000) (D := 128) (Cert.Gcn.agg (F := Ideal) (h1 m c) (a1 m c) (a2 m c)) (Cert.Gcn.colv (inn m c)) (a5 m c) (Cert.Gcn.rowv (a6 m c)) (rs m c)
abbrev h3 : FVec Ideal S50000x128 .f32 :=
  Cert.Gcn.denseResRelu (N := 50000) (D := 128) (Cert.Gcn.agg (F := Ideal) (h2 m c) (a1 m c) (a2 m c)) (Cert.Gcn.colv (inn m c)) (a7 m c) (Cert.Gcn.rowv (a8 m c)) (rs m c)
abbrev h4 : FVec Ideal S50000x64 .f32 :=
  Cert.Gcn.dense (N := 50000) (D := 64) (Cert.Gcn.agg (F := Ideal) (h3 m c) (a1 m c) (a2 m c)) (Cert.Gcn.colv (inn m c)) (a9 m c) (Cert.Gcn.rowv64 (a10 m c))

/-! ### After the first call: its result array holds the first layer; every other buffer is as the call found it -/

theorem W6_v28 : W6 m ρ c (Proc.devRef .tc main_v28) = h1 m c := by
  refine (W6_arr m ρ c 4).trans ((Cert.KernelIdeal.Blocks.arr0 (V5 m ρ) c).trans ?_)
  show Cert.Gcn.denseRelu (N := 50000) (D := 128) (W5 m ρ c (Proc.devRef .tc main_v25)) (W5 m ρ c (Proc.devRef .tc main_v26)) (W5 m ρ c (Proc.devRef .tc main_arg3)) (W5 m ρ c (Proc.devRef .tc main_v27)) = _
  rw [W5_v25, W5_v26, W5_arg3, W5_v27]
theorem W6_v9 : W6 m ρ c (Proc.devRef .tc main_v9) = inn m c := (W6_of_ne m ρ c main_v9 (by decide)).trans (W5_v9 m ρ c)
theorem W6_v12 : W6 m ρ c (Proc.devRef .tc main_v12) = out m c := (W6_of_ne m ρ c main_v12 (by decide)).trans (W5_v12 m ρ c)
theorem W6_arg0 : W6 m ρ c (Proc.devRef .tc main_arg0) = a0 m c := (W6_of_ne m ρ c main_arg0 (by decide)).trans (W5_arg0 m ρ c)
theorem W6_arg1 : W6 m ρ c (Proc.devRef .tc main_arg1) = a1 m c := (W6_of_ne m ρ c main_arg1 (by decide)).trans (W5_arg1 m ρ c)
theorem W6_arg2 : W6 m ρ c (Proc.devRef .tc main_arg2) = a2 m c := (W6_of_ne m ρ c main_arg2 (by decide)).trans (W5_arg2 m ρ c)
theorem W6_arg5 : W6 m ρ c (Proc.devRef .tc main_arg5) = a5 m c := (W6_of_ne m ρ c main_arg5 (by decide)).trans (W5_arg5 m ρ c)
theorem W6_arg6 : W6 m ρ c (Proc.devRef .tc main_arg6) = a6 m c := (W6_of_ne m ρ c main_arg6 (by decide)).trans (W5_arg6 m ρ c)
theorem W6_arg7 : W6 m ρ c (Proc.devRef .tc main_arg7) = a7 m c := (W6_of_ne m ρ c main_arg7 (by decide)).trans (W5_arg7 m ρ c)
theorem W6_arg8 : W6 m ρ c (Proc.devRef .tc main_arg8) = a8 m c := (W6_of_ne m ρ c main_arg8 (by decide)).trans (W5_arg8 m ρ c)
theorem W6_arg9 : W6 m ρ c (Proc.devRef .tc main_arg9) = a9 m c := (W6_of_ne m ρ c main_arg9 (by decide)).trans (W5_arg9 m ρ c)
theorem W6_arg10 : W6 m ρ c (Proc.devRef .tc main_arg10) = a10 m c := (W6_of_ne m ρ c main_arg10 (by decide)).trans (W5_arg10 m ρ c)

/-! ### The stretch before the second call: the residual, the aggregate of the first layer, the column and the row -/

set_option maxHeartbeats 1000000 in
theorem W7_v57 : W7 m ρ c (Proc.devRef .tc main_v57) = Cert.Gcn.agg (F := Ideal) (h1 m c) (a1 m c) (a2 m c) := by
  unfold W7
  after_results_simp
  rw [W6_v28, W6_v12, W6_arg1, W6_arg2]
  unfold Cert.Gcn.agg Cert.Gcn.aggregate Cert.Gcn.col
  rfl
set_option maxHeartbeats 1000000 in
theorem W7_v58 : W7 m ρ c (Proc.devRef .tc main_v58) = Cert.Gcn.colv (inn m c) := by
  unfold W7
  after_results_simp
  rw [W6_v9]
  unfold Cert.Gcn.colv
  rfl
set_option maxHeartbeats 1000000 in
theorem W7_v59 : W7 m ρ c (Proc.devRef .tc main_v59) = Cert.Gcn.rowv (a6 m c) := by
  unfold W7
  after_results_simp
  rw [W6_arg6]
  unfold Cert.Gcn.rowv
  rfl
set_option maxHeartbeats 1000000 in
theorem W7_v44 : W7 m ρ c (Proc.devRef .tc main_v44) = rs m c := by
  unfold W7
  after_results_simp
  rw [W6_arg0, W6_v9, W6_arg1, W6_arg2]
  unfold rs Cert.Gcn.resid Cert.Gcn.aggregate Cert.Gcn.col
  rfl
set_option maxHeartbeats 1000000 in
theorem W7_v9 : W7 m ρ c (Proc.devRef .tc main_v9) = inn m c := by
  unfold W7
  after_results_simp
  exact W6_v9 m ρ c
set_option maxHeartbeats 1000000 in
theorem W7_v12 : W7 m ρ c (Proc.devRef .tc main_v12) = out m c := by
  unfold W7
  after_results_simp
  exact W6_v12 m ρ c
set_option maxHeartbeats 1000000 in
theorem W7_arg0 : W7 m ρ c (Proc.devRef .tc main_arg0) = a0 m c := by
  unfold W7
  after_results_simp
  exact W6_arg0 m ρ c
set_option maxHeartbeats 1000000 in
theorem W7_arg1 : W7 m ρ c (Proc.devRef .tc main_arg1) = a1 m c := by
  unfold W7
  after_results_simp
  exact W6_arg1 m ρ c
set_option maxHeartbeats 1000000 in
theorem W7_arg2 : W7 m ρ c (Proc.devRef .tc main_arg2) = a2 m c := by
  unfold W7
  after_results_simp
  exact W6_arg2 m ρ c
set_option maxHeartbeats 1000000 in
theorem W7_arg5 : W7 m ρ c (Proc.devRef .tc main_arg5) = a5 m c := by
  unfold W7
  after_results_simp
  exact W6_arg5 m ρ c
set_option maxHeartbeats 1000000 in
theorem W7_arg7 : W7 m ρ c (Proc.devRef .tc main_arg7) = a7 m c := by
  unfold W7
  after_results_simp
  exact W6_arg7 m ρ c
set_option maxHeartbeats 1000000 in
theorem W7_arg8 : W7 m ρ c (Proc.devRef .tc main_arg8) = a8 m c := by
  unfold W7
  after_results_simp
  exact W6_arg8 m ρ c
set_option maxHeartbeats 1000000 in
theorem W7_arg9 : W7 m ρ c (Proc.devRef .tc main_arg9) = a9 m c := by
  unfold W7
  after_results_simp
  exact W6_arg9 m ρ c
set_option maxHeartbeats 1000000 in
theorem W7_arg10 : W7 m ρ c (Proc.devRef .tc main_arg10) = a10 m c := by
  unfold W7
  after_results_simp
  exact W6_arg10 m ρ c

/-! ### After the second call -/

theorem W8_v60 : W8 m ρ c (Proc.devRef .tc main_v60) = h2 m c := by
  refine (W8_arr m ρ c 5).trans ((Cert.KernelIdeal.Blocks.arr1 (V7 m ρ) c).trans ?_)
  show Cert.Gcn.denseResRelu (N := 50000) (D := 128) (W7 m ρ c (Proc.devRef .tc main_v57)) (W7 m ρ c (Proc.devRef .tc main_v58)) (W7 m ρ c (Proc.devRef .tc main_arg5)) (W7 m ρ c (Proc.devRef .tc main_v59)) (W7 m ρ c (Proc.devRef .tc main_v44)) = _
  rw [W7_v57, W7_v58, W7_arg5, W7_v59, W7_v44]
theorem W8_v9 : W8 m ρ c (Proc.devRef .tc main_v9) = inn m c := (W8_of_ne m ρ c main_v9 (by decide)).trans (W7_v9 m ρ c)
theorem W8_v12 : W8 m ρ c (Proc.devRef .tc main_v12) = out m c := (W8_of_ne m ρ c main_v12 (by decide)).trans (W7_v12 m ρ c)
theorem W8_arg0 : W8 m ρ c (Proc.devRef .tc main_arg0) = a0 m c := (W8_of_ne m ρ c main_arg0 (by decide)).trans (W7_arg0 m ρ c)
theorem W8_arg1 : W8 m ρ c (Proc.devRef .tc main_arg1) = a1 m c := (W8_of_ne m ρ c main_arg1 (by decide)).trans (W7_arg1 m ρ c)
theorem W8_arg2 : W8 m ρ c (Proc.devRef .tc main_arg2) = a2 m c := (W8_of_ne m ρ c main_arg2 (by decide)).trans (W7_arg2 m ρ c)
theorem W8_arg7 : W8 m ρ c (Proc.devRef .tc main_arg7) = a7 m c := (W8_of_ne m ρ c main_arg7 (by decide)).trans (W7_arg7 m ρ c)
theorem W8_arg8 : W8 m ρ c (Proc.devRef .tc main_arg8) = a8 m c := (W8_of_ne m ρ c main_arg8 (by decide)).trans (W7_arg8 m ρ c)
theorem W8_arg9 : W8 m ρ c (Proc.devRef .tc main_arg9) = a9 m c := (W8_of_ne m ρ c main_arg9 (by decide)).trans (W7_arg9 m ρ c)
theorem W8_arg10 : W8 m ρ c (Proc.devRef .tc main_arg10) = a10 m c := (W8_of_ne m ρ c main_arg10 (by decide)).trans (W7_arg10 m ρ c)

/-! ### The stretch before the third call -/

set_option maxHeartbeats 1000000 in
theorem W9_v89 : W9 m ρ c (Proc.devRef .tc main_v89) = Cert.Gcn.agg (F := Ideal) (h2 m c) (a1 m c) (a2 m c) := by
  unfold W9
  after_results_simp
  rw [W8_v60, W8_v12, W8_arg1, W8_arg2]
  unfold Cert.Gcn.agg Cert.Gcn.aggregate Cert.Gcn.col
  rfl
set_option maxHeartbeats 1000000 in
theorem W9_v90 : W9 m ρ c (Proc.devRef .tc main_v90) = Cert.Gcn.colv (inn m c) := by
  unfold W9
  after_results_simp
  rw [W8_v9]
  unfold Cert.Gcn.colv
  rfl
set_option maxHeartbeats 1000000 in
theorem W9_v91 : W9 m ρ c (Proc.devRef .tc main_v91) = Cert.Gcn.rowv (a8 m c) := by
  unfold W9
  after_results_simp
  rw [W8_arg8]
  unfold Cert.Gcn.rowv
  rfl
set_option maxHeartbeats 1000000 in
theorem W9_v76 : W9 m ρ c (Proc.devRef .tc main_v76) = rs m c := by
  unfold W9
  after_results_simp
  rw [W8_arg0, W8_v9, W8_arg1, W8_arg2]
  unfold rs Cert.Gcn.resid Cert.Gcn.aggregate Cert.Gcn.col
  rfl
set_option maxHeartbeats 1000000 in
theorem W9_v9 : W9 m ρ c (Proc.devRef .tc main_v9) = inn m c := by
  unfold W9
  after_results_simp
  exact W8_v9 m ρ c
set_option maxHeartbeats 1000000 in
theorem W9_v12 : W9 m ρ c (Proc.devRef .tc main_v12) = out m c := by
  unfold W9
  after_results_simp
  exact W8_v12 m ρ c
set_option maxHeartbeats 1000000 in
theorem W9_arg1 : W9 m ρ c (Proc.devRef .tc main_arg1) = a1 m c := by
  unfold W9
  after_results_simp
  exact W8_arg1 m ρ c
set_option maxHeartbeats 1000000 in
theorem W9_arg2 : W9 m ρ c (Proc.devRef .tc main_arg2) = a2 m c := by
  unfold W9
  after_results_simp
  exact W8_arg2 m ρ c
set_option maxHeartbeats 1000000 in
theorem W9_arg7 : W9 m ρ c (Proc.devRef .tc main_arg7) = a7 m c := by
  unfold W9
  after_results_simp
  exact W8_arg7 m ρ c
set_option maxHeartbeats 1000000 in
theorem W9_arg9 : W9 m ρ c (Proc.devRef .tc main_arg9) = a9 m c := by
  unfold W9
  after_results_simp
  exact W8_arg9 m ρ c
set_option maxHeartbeats 1000000 in
theorem W9_arg10 : W9 m ρ c (Proc.devRef .tc main_arg10) = a10 m c := by
  unfold W9
  after_results_simp
  exact W8_arg10 m ρ c

/-! ### After the third call -/

theorem W10_v92 : W10 m ρ c (Proc.devRef .tc main_v92) = h3 m c := by
  refine (W10_arr m ρ c 5).trans ((Cert.KernelIdeal.Blocks.arr2 (V9 m ρ) c).trans ?_)
  show Cert.Gcn.denseResRelu (N := 50000) (D := 128) (W9 m ρ c (Proc.devRef .tc main_v89)) (W9 m ρ c (Proc.devRef .tc main_v90)) (W9 m ρ c (Proc.devRef .tc main_arg7)) (W9 m ρ c (Proc.devRef .tc main_v91)) (W9 m ρ c (Proc.devRef .tc main_v76)) = _
  rw [W9_v89, W9_v90, W9_arg7, W9_v91, W9_v76]
theorem W10_v9 : W10 m ρ c (Proc.devRef .tc main_v9) = inn m c := (W10_of_ne m ρ c main_v9 (by decide)).trans (W9_v9 m ρ c)
theorem W10_v12 : W10 m ρ c (Proc.devRef .tc main_v12) = out m c := (W10_of_ne m ρ c main_v12 (by decide)).trans (W9_v12 m ρ c)
theorem W10_arg1 : W10 m ρ c (Proc.devRef .tc main_arg1) = a1 m c := (W10_of_ne m ρ c main_arg1 (by decide)).trans (W9_arg1 m ρ c)
theorem W10_arg2 : W10 m ρ c (Proc.devRef .tc main_arg2) = a2 m c := (W10_of_ne m ρ c main_arg2 (by decide)).trans (W9_arg2 m ρ c)
theorem W10_arg9 : W10 m ρ c (Proc.devRef .tc main_arg9) = a9 m c := (W10_of_ne m ρ c main_arg9 (by decide)).trans (W9_arg9 m ρ c)
theorem W10_arg10 : W10 m ρ c (Proc.devRef .tc main_arg10) = a10 m c := (W10_of_ne m ρ c main_arg10 (by decide)).trans (W9_arg10 m ρ c)

/-! ### The stretch before the last call, and the last call -/

set_option maxHeartbeats 1000000 in
theorem W11_v105 : W11 m ρ c (Proc.devRef .tc main_v105) = Cert.Gcn.agg (F := Ideal) (h3 m c) (a1 m c) (a2 m c) := by
  unfold W11
  after_results_simp
  rw [W10_v92, W10_v12, W10_arg1, W10_arg2]
  unfold Cert.Gcn.agg Cert.Gcn.aggregate Cert.Gcn.col
  rfl
set_option maxHeartbeats 1000000 in
theorem W11_v106 : W11 m ρ c (Proc.devRef .tc main_v106) = Cert.Gcn.colv (inn m c) := by
  unfold W11
  after_results_simp
  rw [W10_v9]
  unfold Cert.Gcn.colv
  rfl
set_option maxHeartbeats 1000000 in
theorem W11_v107 : W11 m ρ c (Proc.devRef .tc main_v107) = Cert.Gcn.rowv64 (a10 m c) := by
  unfold W11
  after_results_simp
  rw [W10_arg10]
  unfold Cert.Gcn.rowv64
  rfl
set_option maxHeartbeats 1000000 in
theorem W11_arg9 : W11 m ρ c (Proc.devRef .tc main_arg9) = a9 m c := by
  unfold W11
  after_results_simp
  exact W10_arg9 m ρ c

/-- After the last call the result array holds the last layer: the network of the launch contents of the arguments. -/
theorem W12_v108 : W12 m ρ c (Proc.devRef .tc main_v108) = h4 m c := by
  refine (W12_arr m ρ c 4).trans ((Cert.KernelIdeal.Blocks.arr3 (V11 m ρ) c).trans ?_)
  show Cert.Gcn.dense (N := 50000) (D := 64) (W11 m ρ c (Proc.devRef .tc main_v105)) (W11 m ρ c (Proc.devRef .tc main_v106)) (W11 m ρ c (Proc.devRef .tc main_arg9)) (W11 m ρ c (Proc.devRef .tc main_v107)) = _
  rw [W11_v105, W11_v106, W11_arg9, W11_v107]

/-- The last layer's result is the network through the layer functions. -/
theorem h4_eq : h4 m c = Cert.Gcn.kerNet (a0 m c) (a1 m c) (a2 m c) (a3 m c) (a4 m c) (a5 m c) (a6 m c) (a7 m c) (a8 m c) (a9 m c) (a10 m c) := rfl

end Post

end Cert.KernelIdeal.Walk

end
-- ==== Proof.RefSide.lean ====
/-
  The reference's result is the network in the host's spelling: its run's composed term, with every shared value
  written out where it is used, is `refNet` of the eleven argument arrays once the named pieces are unfolded.
-/
import proofs.«126240_j20607253086494_1_alg».proof.Proof.Gen.ReferenceIdeal.Run
import proofs.«126240_j20607253086494_1_alg».proof.Proof.Spec

noncomputable section

namespace Cert.ReferenceIdeal.Net

open Idealize.ShloMosaic Idealize.ShloMosaic.TcCoe Idealize.SL.Sem
open Cert.ReferenceIdeal Cert.ReferenceIdeal.Gen

set_option maxRecDepth 16384 in
/-- The run's term for the result array is the network of the launch contents of the arguments. -/
theorem res_eq (m : (ℓ : Loc nD τ sig) → Buf (Elt Ideal) ℓ) (c : Dev nD) :
    Cert.ReferenceIdeal.Value.res_main_v129 (F := Ideal) m c
      = Cert.Gcn.refNet (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10)) := by
  unfold Cert.ReferenceIdeal.Value.res_main_v129
  rfl

end Cert.ReferenceIdeal.Net

end
-- ==== Proof.lean ====
/-
  A four-layer graph network on 50000 nodes and 800000 edges: its Pallas program against the jnp reference, over the
  extended reals.

  Both programs compute, on the host, the in- and out-degree factors (degree clipped at one, to the power −1/2) and,
  for each layer, the aggregate of the scaled features (a gather along the edge sources, a scatter-add along the
  destinations). The kernel program then runs each layer's dense part — scale the aggregate by the in-degree factor,
  multiply by the weights, add the bias, for the two middle layers add the residual, rectify (not the last) — as a
  kernel over ten blocks of 5000 rows; the reference runs it as host operations on the whole arrays. On the extended
  reals the kernel's two roundings to bf16 are the identity and its matrix product into a zero accumulator is the
  host's product: entry by entry both are `(∑ i, (x (p, i) · s p) · W (i, q)) + b q`, in the same order of
  operations, so no law of arithmetic is needed and the precondition is never opened.

  The modules: Layer (a layer entry by entry, in the body's spelling and in the host's), Spec (the network as one
  function, in the host's spelling and through the layer functions), Region0 … Region3 (each call's result array from
  its ten row blocks), KRun (the kernel program's run with every buffer named), Walk (the kernel program's buffers,
  boundary by boundary, down to the launch memory), RefSide (the reference's run is the network in the host's spelling).
-/
import proofs.«126240_j20607253086494_1_alg».proof.Defs
import proofs.«126240_j20607253086494_1_alg».proof.Proof.Gen.Kernel
import proofs.«126240_j20607253086494_1_alg».proof.Proof.Gen.Kernel.Skeleton
import proofs.«126240_j20607253086494_1_alg».proof.Proof.Gen.Kernel.Launch
import proofs.«126240_j20607253086494_1_alg».proof.Proof.Gen.Kernel.Points
import proofs.«126240_j20607253086494_1_alg».proof.Proof.Gen.Kernel.Frame
import proofs.«126240_j20607253086494_1_alg».proof.Proof.Gen.KernelIdeal
import proofs.«126240_j20607253086494_1_alg».proof.Proof.Gen.KernelIdeal.Skeleton
import proofs.«126240_j20607253086494_1_alg».proof.Proof.Gen.KernelIdeal.Launch
import proofs.«126240_j20607253086494_1_alg».proof.Proof.Gen.KernelIdeal.Points
import proofs.«126240_j20607253086494_1_alg».proof.Proof.Gen.KernelIdeal.Frame
import proofs.«126240_j20607253086494_1_alg».proof.Proof.Gen.ReferenceIdeal
import proofs.«126240_j20607253086494_1_alg».proof.Proof.Gen.Pre_finite_inputs
import proofs.«126240_j20607253086494_1_alg».proof.Proof.Gen.ReferenceIdeal.Run
import proofs.«126240_j20607253086494_1_alg».proof.Proof.KRun
import proofs.«126240_j20607253086494_1_alg».proof.Proof.Walk
import proofs.«126240_j20607253086494_1_alg».proof.Proof.RefSide
import Idealize.ShloMosaic.Adequacy
import Idealize.ShloMosaic.Init

noncomputable section

namespace Cert.Proof

open Idealize.ShloMosaic Idealize.SL.Sem

/-- The word-level program runs and keeps its arguments: its frame. -/
theorem frame_k : Cert.frame_Kernel := fun m ρ _ => Cert.Kernel.Gen.frame m ρ

/-- So does the idealized program. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The two idealized programs end with the same result array: the kernel program's last call leaves the network
    through the layer functions (Walk), the reference's run the network in the host's spelling (RefSide), of arguments
    that agree; the two spellings are one function (Spec). -/
theorem algebraic : Cert.algebraic_KernelIdeal_ReferenceIdeal := by
  intro m ρ m' ρ' _ hagree
  refine ⟨fun c => Cert.KernelIdeal.Walk.h4 m c, ?_, ?_⟩
  · exact (θ_run Cert.KernelIdeal.defs _ _).mono
      (fun _ h c => ⟨(h c).1.trans (Cert.KernelIdeal.Walk.W12_v108 m ρ c), (h c).2⟩)
      (Cert.KernelIdeal.Named.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10⟩ := hagree c
    rw [Cert.ReferenceIdeal.Net.res_eq, Cert.Gcn.refNet_eq_kerNet, e0, e1, e2, e3, e4, e5, e6, e7, e8, e9, e10]
    exact (Cert.KernelIdeal.Walk.h4_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
